-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100352x256 : Shape := ⟨2, ![100352, 256]⟩
abbrev S100352x64 : Shape := ⟨2, ![100352, 64]⟩
abbrev S2048x256 : Shape := ⟨2, ![2048, 256]⟩
abbrev S2048x64 : Shape := ⟨2, ![2048, 64]⟩
abbrev S100000x64 : Shape := ⟨2, ![100000, 64]⟩
abbrev S1700000x64 : Shape := ⟨2, ![1700000, 64]⟩
abbrev S1x64 : Shape := ⟨2, ![1, 64]⟩
abbrev S100352x16 : Shape := ⟨2, ![100352, 16]⟩
abbrev S2048x16 : Shape := ⟨2, ![2048, 16]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 115
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S_, .f32⟩
  | .hbm, ⟨49, _⟩ => ⟨S100352x256, .f32⟩
  | .hbm, ⟨50, _⟩ => ⟨S100352x256, .bf16⟩
  | .hbm, ⟨51, _⟩ => ⟨S256x64, .bf16⟩
  | .hbm, ⟨52, _⟩ => ⟨S100352x64, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S_, .f32⟩
  | .hbm, ⟨77, _⟩ => ⟨S100352x64, .f32⟩
  | .hbm, ⟨78, _⟩ => ⟨S100352x64, .bf16⟩
  | .hbm, ⟨79, _⟩ => ⟨S64x16, .bf16⟩
  | .hbm, ⟨80, _⟩ => ⟨S100352x16, .f32⟩
  | .hbm, ⟨81, _⟩ => ⟨S100000x16, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x16, .f32⟩
  | .hbm, ⟨91, _⟩ => ⟨S1700000x16, .f32⟩
  | .hbm, ⟨92, _⟩ => ⟨S1700000x16, .f32⟩
  | .hbm, ⟨93, _⟩ => ⟨S_, .f32⟩
  | .hbm, ⟨94, _⟩ => ⟨S100000x16, .f32⟩
  | .hbm, ⟨95, _⟩ => ⟨S1700000x1, .i32⟩
  | .hbm, ⟨96, _⟩ => ⟨S100000x16, .f32⟩
  | .hbm, ⟨97, _⟩ => ⟨S1x16, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x16, .f32⟩
  | .hbm, ⟨107, _⟩ => ⟨S100000x16, .f32⟩
  | .hbm, ⟨108, _⟩ => ⟨S100000x16, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S100000x16, .f32⟩
  | .hbm, ⟨114, _⟩ => ⟨S100000x16, .f32⟩
  | .local _ .vmem, ⟨0, _⟩ => ⟨S2048x256, .bf16⟩
  | .local _ .vmem, ⟨1, _⟩ => ⟨S2048x256, .bf16⟩
  | .local _ .vmem, ⟨2, _⟩ => ⟨S256x64, .bf16⟩
  | .local _ .vmem, ⟨3, _⟩ => ⟨S2048x64, .f32⟩
  | .local _ .vmem, ⟨4, _⟩ => ⟨S2048x64, .f32⟩
  | .local _ .vmem, ⟨5, _⟩ => ⟨S2048x64, .bf16⟩
  | .local _ .vmem, ⟨6, _⟩ => ⟨S2048x64, .bf16⟩
  | .local _ .vmem, ⟨7, _⟩ => ⟨S64x16, .bf16⟩
  | .local _ .vmem, ⟨8, _⟩ => ⟨S2048x16, .f32⟩
  | .local _ .vmem, ⟨9, _⟩ => ⟨S2048x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_call1_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call2_cst : Ref sig .tc := ⟨.hbm, 72, rfl⟩
abbrev main_call2_v0 : Ref sig .tc := ⟨.hbm, 73, rfl⟩
abbrev main_v51 : Ref sig .tc := ⟨.hbm, 74, rfl⟩
abbrev main_c_10 : Ref sig .tc := ⟨.hbm, 75, rfl⟩
abbrev main_call3_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call4_cst : Ref sig .tc := ⟨.hbm, 100, rfl⟩
abbrev main_call4_v0 : Ref sig .tc := ⟨.hbm, 101, rfl⟩
abbrev main_call4_cst_0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_v6 : Ref sig .tc := ⟨.hbm, 108, rfl⟩
abbrev main_call4_cst_1 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_v72 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S100000x256_S100352x256_03520_000 : S100000x256.Pads (![0, 0] : Fin 2 → Nat) ![352, 0] ![0, 0] S100352x256
  h_S_ : 0 < S_.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2048x64_S2048x64_0_0 : ∀ a, (![0, 0] : Fin 2 → Nat) a + S2048x64.size a ≤ S2048x64.size a
  h_S2048x64 : 0 < S2048x64.numel
  slices_S100352x64_S100000x64_0_0 : S100352x64.Slices ![0, 0] S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  pads_S100000x64_S100352x64_03520_000 : S100000x64.Pads (![0, 0] : Fin 2 → Nat) ![352, 0] ![0, 0] S100352x64
  shapeCasts_S2048x64_S2048x64 : S2048x64.ShapeCasts S2048x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S2048x16_S2048x16_0_0 : ∀ a, (![0, 0] : Fin 2 → Nat) a + S2048x16.size a ≤ S2048x16.size a
  h_S2048x16 : 0 < S2048x16.numel
  slices_S100352x16_S100000x16_0_0 : S100352x16.Slices ![0, 0] S100000x16
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2048x256_S256x64_S2048x64_1_0_0_1_n_n_wf : DotDims.WF S2048x256 S256x64 S2048x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2048x64_S64x16_S2048x16_1_0_0_1_n_n_wf : DotDims.WF S2048x64 S64x16 S2048x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S100352x256.size a
  hwx0_0 : ∀ i : grid0.Coords, EltTy.bits .bf16 = 32 ∨ (Rect.block (s := S100352x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S100352x64.size a
  hwx0_2 : ∀ i : grid0.Coords, EltTy.bits .f32 = 32 ∨ (Rect.block (s := S100352x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S100352x64.size a
  hwx1_0 : ∀ i : grid1.Coords, EltTy.bits .bf16 = 32 ∨ (Rect.block (s := S100352x64) S2048x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .bf16 = 32 ∨ (Rect.block (s := S64x16) S64x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x16.size a ≤ S100352x16.size a
  hwx1_2 : ∀ i : grid1.Coords, EltTy.bits .f32 = 32 ∨ (Rect.block (s := S100352x16) S2048x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_v32) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S2048x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x16, .f32⟩
  | 5 => ⟨S16, .f32⟩
  | 6 => ⟨S100000x64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x16, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x16, .f32⟩
  | 119 => ⟨S1700000x1, .f32⟩
  | 120 => ⟨S1700000x16, .f32⟩
  | 121 => ⟨S1700000x16, .f32⟩
  | 122 => ⟨S_, .f32⟩
  | 123 => ⟨S100000x16, .f32⟩
  | 124 => ⟨S1700000x1, .i32⟩
  | 125 => ⟨S100000x16, .f32⟩
  | 126 => ⟨S1x16, .f32⟩
  | 127 => ⟨S100000x16, .f32⟩
  | _ => ⟨S100000x256, .f32⟩

abbrev hbmTy0_1 (i : Nat) : BufTy := match i % 128 with
  | 0 => ⟨S100000x16, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x16, .f32⟩
  | 8 => ⟨S100000x16, .f32⟩
  | 9 => ⟨S100000x16, .f32⟩
  | 10 => ⟨S_, .f32⟩
  | 11 => ⟨S100000, .f32⟩
  | 12 => ⟨S100000x1, .f32⟩
  | 13 => ⟨S100000x1, .f32⟩
  | 14 => ⟨S100000x16, .f32⟩
  | 15 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run, with every buffer read at the end.

  @main is fourteen segments: five stretches of host operations, the first product's region, five more stretches,
  the second product's region, and two last stretches (the second aggregation and the row-wise log-softmax).  The
  contents of the TensorCore's buffers at each boundary are a fold from the launch memory: a stretch applies its
  operations, a region replaces its three arrays by what its write-backs leave and keeps every other buffer.  The
  run below says that every weakly fair execution terminates, nothing faulting, with every unscoped buffer at the
  last boundary's contents; the result array and the six arguments are then read off that one statement.  It holds
  at any float instance.
-/
import proofs.«126925_j8761733284301_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, and in every final state each unscoped
    buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The same run with the result array and the six arguments named: the result at the last boundary's contents,
    each argument as launched (no operation and no region writes an argument). -/
theorem run_result : θ_run defs (onTc (τ := τ) (main (F := F))) ⟨m, fun _ => 0, ρ⟩ (fun r => ∀ c : Dev nD,
      r.2.mem ((c.tc : Thread nD τ).loc main_v72) = W14 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v72 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c)⟩)
    (run_all m ρ)

end Cert.KernelIdeal.Run

end
-- ==== Proof.Spec.lean ====
/-
  What both programs compute around their two dense products.

  The graph has 100000 nodes and 1600000 directed edges, given as a [2, 1600000] integer array (row 0 the sources, row 1
  the targets).  Every node gets a self-loop: `src` and `dst` are the two rows each followed by 0 … 99999, 1700000
  entries.  A node's degree is the number of targets equal to it (a scatter-add of ones), `dinv` its inverse square
  root where the degree is positive and 0 elsewhere, and the weight of entry j is dinv (source j) · dinv (target j)
  (`normFlat`; an index below zero is first moved up by 100000, as the gather's indexing does: `wrap`).  One
  aggregation of an array h of node rows gathers row source j for every j, scales it by the weight of j and adds it
  into row target j.  `layer1` is an aggregation followed by the bias and a clamp at zero; `logits` an aggregation
  followed by the bias; `logSoftmax` subtracts from each row its maximum and then the logarithm of the sum of the
  exponentials of what is left.  Each function takes what it reads as arguments, so that a program's operations can
  be matched to it whatever buffers they read from.
-/
import proofs.«126925_j8761733284301_2_alg».proof.KernelIdeal
import proofs.«126925_j8761733284301_2_alg».proof.Proof.Gen.KernelIdeal

noncomputable section

namespace Cert.KernelIdeal.Spec

open Cert.KernelIdeal Cert.KernelIdeal.Facts₀
open Idealize.ShloMosaic

variable {F : FTy → Type} [FloatOps F]

/-- The contents of a tensor value of shape `s` and element type `e`. -/
abbrev Arr (F : FTy → Type) (s : Shape) (e : EltTy) : Type := (⟨s, e⟩ : BufTy).Contents (Elt F)

/-- The sources: the edge list's row 0, then the nodes 0 … 99999. -/
def src (e : Arr F S2x1600000 .i32) : Arr F S1700000 .i32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: the edge list's row 1, then the nodes 0 … 99999. -/
def dst (e : Arr F S2x1600000 .i32) : Arr F S1700000 .i32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node indices as a gather reads them: an index below zero moved up by 100000; as a column. -/
def wrap (i : Arr F S1700000 .i32) : Arr F S1700000x1 .i32 :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- A node's degree: the number of targets `d` equal to it, as a scatter-add of ones into zeros. -/
def deg (d : Arr F S1700000 .i32) : Arr F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- Where the degree is positive. -/
def degPos (d : Arr F S1700000 .i32) : Arr F S100000 .i1 :=
  cmpf (F := F) .ogt (deg d) (broadcastInDim S100000 ![] bcast_S_S100000 (constant S_ .f32 0x00000000#32))

/-- The select of the `where`: `a` where `p` holds, the scalar `z` elsewhere. -/
def whereSel (p : Arr F S100000 .i1) (a : Arr F S100000 .f32) (z : Arr F S_ .f32) : Arr F S100000 .f32 :=
  select p a (broadcastInDim S100000 ![] bcast_S_S100000 (id z))

/-- The inverse square root of the degree where it is positive, zero elsewhere. -/
def dinv (d : Arr F S1700000 .i32) : Arr F S100000 .f32 :=
  whereSel (degPos d) (Host.rsqrt (deg d)) (constant S_ .f32 0x00000000#32)

/-- The weight of each of the 1700000 entries: `di` at its source times `di` at its target. -/
def normFlat (s d : Arr F S1700000 .i32) (di : Arr F S100000 .f32) : Arr F S1700000 .f32 :=
  mulf (Host.gather gather_S100000_S1700000x1_S1700000_n_0_n_n_0_1_1 di (wrap s)) (Host.gather gather_S100000_S1700000x1_S1700000_n_0_n_n_0_1_1 di (wrap d))

/-- The weights as a column. -/
def col (w : Arr F S1700000 .f32) : Arr F S1700000x1 .f32 :=
  broadcastInDim S1700000x1 ![0] bcast_S1700000_S1700000x1_0 w

/-- One aggregation of the 64-wide rows `h` (sources `s`, targets `d`, weights `w`), plus the bias. -/
def agg1 (h : Arr F S100000x64 .f32) (s d : Arr F S1700000 .i32) (w : Arr F S1700000x1 .f32) (b : Arr F S64 .f32) :
    Arr F S100000x64 .f32 :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 w))) (broadcastInDim S100000x64 ![0, 1] bcast_S1x64_S100000x64_0_1 (broadcastInDim S1x64 ![1] bcast_S64_S1x64_1 b))

/-- The clamp at zero. -/
def relu (z : Arr F S100000x64 .f32) : Arr F S100000x64 .f32 :=
  maximumf z (broadcastInDim S100000x64 ![] bcast_S_S100000x64 (constant S_ .f32 0x00000000#32))

/-- The first layer after its product: aggregate, add the bias, clamp at zero. -/
def layer1 (h : Arr F S100000x64 .f32) (s d : Arr F S1700000 .i32) (w : Arr F S1700000x1 .f32) (b : Arr F S64 .f32) :
    Arr F S100000x64 .f32 :=
  relu (agg1 h s d w b)

/-- The second layer after its product, before the softmax: aggregate the rows of `h`, add the bias. -/
def logits (h : Arr F S100000x16 .f32) (s d : Arr F S1700000 .i32) (w : Arr F S1700000x1 .f32) (b : Arr F S16 .f32) :
    Arr F S100000x16 .f32 :=
  addf (Host.scatterAdd scatter_S100000x16_S1700000x1_S1700000x16_1_0_0_1 (broadcastInDim S100000x16 ![] bcast_S_S100000x16 (constant S_ .f32 0x00000000#32)) (broadcastInDim S1700000x1 ![0] bcast_S1700000_S1700000x1_0 d) (mulf (Host.gather gather_S100000x16_S1700000x1_S1700000x16_1_0_n_n_0_1_116 h (wrap s)) (broadcastInDim S1700000x16 ![0, 1] bcast_S1700000x1_S1700000x16_0_1 w))) (broadcastInDim S100000x16 ![0, 1] bcast_S1x16_S100000x16_0_1 (broadcastInDim S1x16 ![1] bcast_S16_S1x16_1 b))

/-- A row's entries less the row's maximum (the maximum taken against −∞). -/
def centred (z : Arr F S100000x16 .f32) : Arr F S100000x16 .f32 :=
  subf z (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x16_S100000_d1 h_S_))))

/-- The row-wise log-softmax: the centred entries less the logarithm of the sum of their exponentials. -/
def logSoftmax (z : Arr F S100000x16 .f32) : Arr F S100000x16 .f32 :=
  subf (centred z) (broadcastInDim S100000x16 ![0, 1] bcast_S100000x1_S100000x16_0_1 (Host.log (broadcastInDim S100000x1 ![0] bcast_S100000_S100000x1_0 (Host.reduceAdd (Host.exp (centred z)) (constant S_ .f32 0x00000000#32) reducesTo_S100000x16_S100000_d1 h_S_))))

end Cert.KernelIdeal.Spec

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.HostStretches.lean ====
/-
  The host operations of the idealized kernel, stretch by stretch.

  @main's host operations come in twelve stretches: five before the first product's region, five between the regions,
  two after the second.  For ANY contents `U` of the buffers a stretch starts from, each buffer it leaves is a
  function of Proof/Spec.lean of the buffers it reads: the stretch's operations, composed, ARE that function's
  definition.  A stretch that is the body of an outlined function (the `where`, the two paddings, the clamp, the
  log-softmax) reaches its buffers through typed references; a value stored and read back through one is the value,
  and at this program's literal references the transports at a stretch's inputs and output are the identity.  A
  buffer no operation of a run of stretches writes keeps its contents.  Composed, the stretches give what each
  segment of host operations (before, between, after the regions) leaves, from any contents.
-/
import proofs.«126925_j8761733284301_2_alg».proof.Proof.Gen.KernelIdeal.Launch
import proofs.«126925_j8761733284301_2_alg».proof.Proof.Spec
import proofs.«126925_j8761733284301_2_alg».proof.Proof.LibTypedRef
import Idealize.ShloMosaic.Lib.StableHlo.Run
import Idealize.ShloMosaic.PureOps.Ideal

set_option maxRecDepth 65536
set_option maxHeartbeats 2000000

noncomputable section

namespace Cert.KernelIdeal.Stretches

open Cert.KernelIdeal Cert.KernelIdeal.Gen
open Idealize.ShloMosaic Idealize.ShloMosaic.TcCoe Idealize.SL.Sem Idealize.ShloMosaic.StableHlo

/-! ## The transports at the outlined functions' inputs and outputs are the identity -/

theorem ofBuf_main_v12 (z : (Proc.devRef .tc main_v12 : DevRef τ sig).ty.Contents (Elt Ideal)) :
    (TRef.of main_v12 : TRef sig ⟨S100000, .i1⟩).ofBuf z = z := rfl
theorem ofBuf_main_v13 (z : (Proc.devRef .tc main_v13 : DevRef τ sig).ty.Contents (Elt Ideal)) :
    (TRef.of main_v13 : TRef sig ⟨S100000, .f32⟩).ofBuf z = z := rfl
theorem ofBuf_main_cst_2 (z : (Proc.devRef .tc main_cst_2 : DevRef τ sig).ty.Contents (Elt Ideal)) :
    (TRef.of main_cst_2 : TRef sig ⟨S_, .f32⟩).ofBuf z = z := rfl
theorem toBuf_main_v14 (z : (⟨S100000, .f32⟩ : BufTy).Contents (Elt Ideal)) :
    (TRef.of main_v14 : TRef sig ⟨S100000, .f32⟩).toBuf z = z := rfl
theorem ofBuf_main_c_6 (z : (Proc.devRef .tc main_c_6 : DevRef τ sig).ty.Contents (Elt Ideal)) :
    (TRef.of main_c_6 : TRef sig ⟨S_, .i32⟩).ofBuf z = z := rfl
theorem ofBuf_main_arg0 (z : (Proc.devRef .tc main_arg0 : DevRef τ sig).ty.Contents (Elt Ideal)) :
    (TRef.of main_arg0 : TRef sig ⟨S100000x256, .f32⟩).ofBuf z = z := rfl
theorem toBuf_main_v31 (z : (⟨S100352x256, .f32⟩ : BufTy).Contents (Elt Ideal)) :
    (TRef.of main_v31 : TRef sig ⟨S100352x256, .f32⟩).toBuf z = z := rfl
theorem ofBuf_main_v50 (z : (Proc.devRef .tc main_v50 : DevRef τ sig).ty.Contents (Elt Ideal)) :
    (TRef.of main_v50 : TRef sig ⟨S100000x64, .f32⟩).ofBuf z = z := rfl
theorem toBuf_main_v51 (z : (⟨S100000x64, .f32⟩ : BufTy).Contents (Elt Ideal)) :
    (TRef.of main_v51 : TRef sig ⟨S100000x64, .f32⟩).toBuf z = z := rfl
theorem ofBuf_main_c_10 (z : (Proc.devRef .tc main_c_10 : DevRef τ sig).ty.Contents (Elt Ideal)) :
    (TRef.of main_c_10 : TRef sig ⟨S_, .i32⟩).ofBuf z = z := rfl
theorem ofBuf_main_v51 (z : (Proc.devRef .tc main_v51 : DevRef τ sig).ty.Contents (Elt Ideal)) :
    (TRef.of main_v51 : TRef sig ⟨S100000x64, .f32⟩).ofBuf z = z := rfl
theorem toBuf_main_v52 (z : (⟨S100352x64, .f32⟩ : BufTy).Contents (Elt Ideal)) :
    (TRef.of main_v52 : TRef sig ⟨S100352x64, .f32⟩).toBuf z = z := rfl
theorem ofBuf_main_v71 (z : (Proc.devRef .tc main_v71 : DevRef τ sig).ty.Contents (Elt Ideal)) :
    (TRef.of main_v71 : TRef sig ⟨S100000x16, .f32⟩).ofBuf z = z := rfl
theorem toBuf_main_v72 (z : (⟨S100000x16, .f32⟩ : BufTy).Contents (Elt Ideal)) :
    (TRef.of main_v72 : TRef sig ⟨S100000x16, .f32⟩).toBuf z = z := rfl

variable (U : Valuation τ sig (Elt Ideal))

/-! ## Each stretch, from any contents -/

/-- The sources. -/
theorem k0_src : after hostOps0 U (Proc.devRef .tc main_v5)
    = Spec.src (U (Proc.devRef .tc main_arg1)) := by
  dsimp only [hostOps0]
  after_results_simp <;> rfl

/-- The targets. -/
theorem k0_dst : after hostOps0 U (Proc.devRef .tc main_v6)
    = Spec.dst (U (Proc.devRef .tc main_arg1)) := by
  dsimp only [hostOps0]
  after_results_simp <;> rfl

/-- Where the degree is positive. -/
theorem k0_pos : after hostOps0 U (Proc.devRef .tc main_v12)
    = Spec.degPos (Spec.dst (U (Proc.devRef .tc main_arg1))) := by
  dsimp only [hostOps0]
  after_results_simp <;> rfl

/-- The inverse square roots of the degrees. -/
theorem k0_rsq : after hostOps0 U (Proc.devRef .tc main_v13)
    = Host.rsqrt (Spec.deg (Spec.dst (U (Proc.devRef .tc main_arg1)))) := by
  dsimp only [hostOps0]
  after_results_simp <;> rfl

theorem k0_zero : after hostOps0 U (Proc.devRef .tc main_cst_2)
    = (constant (F := Ideal) S_ .f32 0x00000000#32) := by
  dsimp only [hostOps0]
  after_results_simp <;> rfl

/-- The `where`. -/
theorem k01_dinv : after hostOps0_1 U (Proc.devRef .tc main_v14)
    = Spec.whereSel (U (Proc.devRef .tc main_v12)) (U (Proc.devRef .tc main_v13)) (U (Proc.devRef .tc main_cst_2)) := by
  have h : after hostOps0_1 U (Proc.devRef .tc main_v14)
      = (TRef.of main_v14 : TRef sig ⟨S100000, .f32⟩).toBuf (Spec.whereSel ((TRef.of main_v12 : TRef sig ⟨S100000, .i1⟩).ofBuf (U (Proc.devRef .tc main_v12))) ((TRef.of main_v13 : TRef sig ⟨S100000, .f32⟩).ofBuf (U (Proc.devRef .tc main_v13))) ((TRef.of main_cst_2 : TRef sig ⟨S_, .f32⟩).ofBuf (U (Proc.devRef .tc main_cst_2)))) := by
    dsimp only [hostOps0_1]
    after_results_simp <;> (try simp only [TRef.ofBuf_toBuf]) <;> rfl
  rw [h, toBuf_main_v14, ofBuf_main_v12, ofBuf_main_v13, ofBuf_main_cst_2]

/-- The weights, as a column. -/
theorem k02_norm : after hostOps0_2 U (Proc.devRef .tc main_v30)
    = Spec.col (Spec.normFlat (U (Proc.devRef .tc main_v5)) (U (Proc.devRef .tc main_v6)) (U (Proc.devRef .tc main_v14))) := by
  dsimp only [hostOps0_2]
  after_results_simp <;> rfl

theorem k02_c6 : after hostOps0_2 U (Proc.devRef .tc main_c_6)
    = (constantI S_ 32 0#32) := by
  dsimp only [hostOps0_2]
  after_results_simp <;> rfl

/-- The features with 352 rows appended. -/
theorem k03_pad : after hostOps0_3 U (Proc.devRef .tc main_v31)
    = pad S100352x256 ![0, 0] ![352, 0] ![0, 0] (U (Proc.devRef .tc main_arg0)) (sitofp (F := Ideal) .f32 (U (Proc.devRef .tc main_c_6))) pads_S100000x256_S100352x256_03520_000 h_S_ := by
  have h : after hostOps0_3 U (Proc.devRef .tc main_v31)
      = (TRef.of main_v31 : TRef sig ⟨S100352x256, .f32⟩).toBuf (pad S100352x256 ![0, 0] ![352, 0] ![0, 0] ((TRef.of main_arg0 : TRef sig ⟨S100000x256, .f32⟩).ofBuf (U (Proc.devRef .tc main_arg0))) (sitofp (F := Ideal) .f32 ((TRef.of main_c_6 : TRef sig ⟨S_, .i32⟩).ofBuf (U (Proc.devRef .tc main_c_6)))) pads_S100000x256_S100352x256_03520_000 h_S_) := by
    dsimp only [hostOps0_3]
    after_results_simp <;> (try simp only [TRef.ofBuf_toBuf]) <;> rfl
  rw [h, toBuf_main_v31, ofBuf_main_arg0, ofBuf_main_c_6]

theorem k04_lhs : after hostOps0_4 U (Proc.devRef .tc main_v32)
    = (truncf .bf16 ((U (Proc.devRef .tc main_v31)) : FVec Ideal S100352x256 .f32) bitsLt_bf16_f32 : FVec Ideal S100352x256 .bf16) := by
  dsimp only [hostOps0_4]
  after_results_simp <;> rfl

theorem k04_rhs : after hostOps0_4 U (Proc.devRef .tc main_v33)
    = (truncf .bf16 ((U (Proc.devRef .tc main_arg2)) : FVec Ideal S256x64 .f32) bitsLt_bf16_f32 : FVec Ideal S256x64 .bf16) := by
  dsimp only [hostOps0_4]
  after_results_simp <;> rfl

/-- The first aggregation and bias, of the rows kept of the first region's output. -/
theorem k1_agg : after hostOps1 U (Proc.devRef .tc main_v50)
    = Spec.agg1 (extractStridedSlice S100000x64 ![0, 0] (U (Proc.devRef .tc main_v34)) slices_S100352x64_S100000x64_0_0) (U (Proc.devRef .tc main_v5)) (U (Proc.devRef .tc main_v6)) (U (Proc.devRef .tc main_v30)) (U (Proc.devRef .tc main_arg3)) := by
  dsimp only [hostOps1]
  after_results_simp <;> rfl

/-- The clamp at zero. -/
theorem k11_relu : after hostOps1_1 U (Proc.devRef .tc main_v51)
    = Spec.relu (U (Proc.devRef .tc main_v50)) := by
  have h : after hostOps1_1 U (Proc.devRef .tc main_v51)
      = (TRef.of main_v51 : TRef sig ⟨S100000x64, .f32⟩).toBuf (Spec.relu ((TRef.of main_v50 : TRef sig ⟨S100000x64, .f32⟩).ofBuf (U (Proc.devRef .tc main_v50)))) := by
    dsimp only [hostOps1_1]
    after_results_simp <;> (try simp only [TRef.ofBuf_toBuf]) <;> rfl
  rw [h, toBuf_main_v51, ofBuf_main_v50]

theorem k12_c10 : after hostOps1_2 U (Proc.devRef .tc main_c_10)
    = (constantI S_ 32 0#32) := by
  dsimp only [hostOps1_2]
  after_results_simp <;> rfl

/-- The first layer's output with 352 rows appended. -/
theorem k13_pad : after hostOps1_3 U (Proc.devRef .tc main_v52)
    = pad S100352x64 ![0, 0] ![352, 0] ![0, 0] (U (Proc.devRef .tc main_v51)) (sitofp (F := Ideal) .f32 (U (Proc.devRef .tc main_c_10))) pads_S100000x64_S100352x64_03520_000 h_S_ := by
  have h : after hostOps1_3 U (Proc.devRef .tc main_v52)
      = (TRef.of main_v52 : TRef sig ⟨S100352x64, .f32⟩).toBuf (pad S100352x64 ![0, 0] ![352, 0] ![0, 0] ((TRef.of main_v51 : TRef sig ⟨S100000x64, .f32⟩).ofBuf (U (Proc.devRef .tc main_v51))) (sitofp (F := Ideal) .f32 ((TRef.of main_c_10 : TRef sig ⟨S_, .i32⟩).ofBuf (U (Proc.devRef .tc main_c_10)))) pads_S100000x64_S100352x64_03520_000 h_S_) := by
    dsimp only [hostOps1_3]
    after_results_simp <;> (try simp only [TRef.ofBuf_toBuf]) <;> rfl
  rw [h, toBuf_main_v52, ofBuf_main_v51, ofBuf_main_c_10]

theorem k14_lhs : after hostOps1_4 U (Proc.devRef .tc main_v53)
    = (truncf .bf16 ((U (Proc.devRef .tc main_v52)) : FVec Ideal S100352x64 .f32) bitsLt_bf16_f32 : FVec Ideal S100352x64 .bf16) := by
  dsimp only [hostOps1_4]
  after_results_simp <;> rfl

theorem k14_rhs : after hostOps1_4 U (Proc.devRef .tc main_v54)
    = (truncf .bf16 ((U (Proc.devRef .tc main_arg4)) : FVec Ideal S64x16 .f32) bitsLt_bf16_f32 : FVec Ideal S64x16 .bf16) := by
  dsimp only [hostOps1_4]
  after_results_simp <;> rfl

/-- The second aggregation and bias, of the rows kept of the second region's output. -/
theorem k2_logits : after hostOps2 U (Proc.devRef .tc main_v71)
    = Spec.logits (extractStridedSlice S100000x16 ![0, 0] (U (Proc.devRef .tc main_v55)) slices_S100352x16_S100000x16_0_0) (U (Proc.devRef .tc main_v5)) (U (Proc.devRef .tc main_v6)) (U (Proc.devRef .tc main_v30)) (U (Proc.devRef .tc main_arg5)) := by
  dsimp only [hostOps2]
  after_results_simp <;> rfl

/-- The row-wise log-softmax. -/
theorem k21_out : after hostOps2_1 U (Proc.devRef .tc main_v72)
    = Spec.logSoftmax (U (Proc.devRef .tc main_v71)) := by
  have h : after hostOps2_1 U (Proc.devRef .tc main_v72)
      = (TRef.of main_v72 : TRef sig ⟨S100000x16, .f32⟩).toBuf (Spec.logSoftmax ((TRef.of main_v71 : TRef sig ⟨S100000x16, .f32⟩).ofBuf (U (Proc.devRef .tc main_v71)))) := by
    dsimp only [hostOps2_1]
    after_results_simp <;> (try simp only [TRef.ofBuf_toBuf]) <;> rfl
  rw [h, toBuf_main_v72, ofBuf_main_v71]

/-! ## Buffers a run of stretches does not write -/

theorem keep_src_0_1 : after hostOps0_1 U (Proc.devRef .tc main_v5) = U (Proc.devRef .tc main_v5) := by
  dsimp only [hostOps0_1]
  after_results_simp <;> rfl
theorem keep_dst_0_1 : after hostOps0_1 U (Proc.devRef .tc main_v6) = U (Proc.devRef .tc main_v6) := by
  dsimp only [hostOps0_1]
  after_results_simp <;> rfl
theorem keep_src_pre : after hostOps0_4 (after hostOps0_3 (after hostOps0_2 (after hostOps0_1 (U)))) (Proc.devRef .tc main_v5) = U (Proc.devRef .tc main_v5) := by
  dsimp only [hostOps0_4, hostOps0_3, hostOps0_2, hostOps0_1]
  after_results_simp <;> rfl
theorem keep_dst_pre : after hostOps0_4 (after hostOps0_3 (after hostOps0_2 (after hostOps0_1 (U)))) (Proc.devRef .tc main_v6) = U (Proc.devRef .tc main_v6) := by
  dsimp only [hostOps0_4, hostOps0_3, hostOps0_2, hostOps0_1]
  after_results_simp <;> rfl
theorem keep_norm_pre : after hostOps0_4 (after hostOps0_3 (U)) (Proc.devRef .tc main_v30) = U (Proc.devRef .tc main_v30) := by
  dsimp only [hostOps0_4, hostOps0_3]
  after_results_simp <;> rfl
theorem keep_arg0_pre : after hostOps0_2 (after hostOps0_1 (after hostOps0 (U))) (Proc.devRef .tc main_arg0) = U (Proc.devRef .tc main_arg0) := by
  dsimp only [hostOps0_2, hostOps0_1, hostOps0]
  after_results_simp <;> rfl
theorem keep_arg2_pre : after hostOps0_3 (after hostOps0_2 (after hostOps0_1 (after hostOps0 (U)))) (Proc.devRef .tc main_arg2) = U (Proc.devRef .tc main_arg2) := by
  dsimp only [hostOps0_3, hostOps0_2, hostOps0_1, hostOps0]
  after_results_simp <;> rfl
theorem keep_arg3_pre : after hostOps0_4 (after hostOps0_3 (after hostOps0_2 (after hostOps0_1 (after hostOps0 (U))))) (Proc.devRef .tc main_arg3) = U (Proc.devRef .tc main_arg3) := by
  dsimp only [hostOps0_4, hostOps0_3, hostOps0_2, hostOps0_1, hostOps0]
  after_results_simp <;> rfl
theorem keep_arg4_pre : after hostOps0_4 (after hostOps0_3 (after hostOps0_2 (after hostOps0_1 (after hostOps0 (U))))) (Proc.devRef .tc main_arg4) = U (Proc.devRef .tc main_arg4) := by
  dsimp only [hostOps0_4, hostOps0_3, hostOps0_2, hostOps0_1, hostOps0]
  after_results_simp <;> rfl
theorem keep_arg5_pre : after hostOps0_4 (after hostOps0_3 (after hostOps0_2 (after hostOps0_1 (after hostOps0 (U))))) (Proc.devRef .tc main_arg5) = U (Proc.devRef .tc main_arg5) := by
  dsimp only [hostOps0_4, hostOps0_3, hostOps0_2, hostOps0_1, hostOps0]
  after_results_simp <;> rfl
theorem keep_relu_1_2 : after hostOps1_2 U (Proc.devRef .tc main_v51) = U (Proc.devRef .tc main_v51) := by
  dsimp only [hostOps1_2]
  after_results_simp <;> rfl
theorem keep_arg4_mid : after hostOps1_3 (after hostOps1_2 (after hostOps1_1 (after hostOps1 (U)))) (Proc.devRef .tc main_arg4) = U (Proc.devRef .tc main_arg4) := by
  dsimp only [hostOps1_3, hostOps1_2, hostOps1_1, hostOps1]
  after_results_simp <;> rfl
theorem keep_v5_mid : after hostOps1_4 (after hostOps1_3 (after hostOps1_2 (after hostOps1_1 (after hostOps1 (U))))) (Proc.devRef .tc main_v5) = U (Proc.devRef .tc main_v5) := by
  dsimp only [hostOps1_4, hostOps1_3, hostOps1_2, hostOps1_1, hostOps1]
  after_results_simp <;> rfl
theorem keep_v6_mid : after hostOps1_4 (after hostOps1_3 (after hostOps1_2 (after hostOps1_1 (after hostOps1 (U))))) (Proc.devRef .tc main_v6) = U (Proc.devRef .tc main_v6) := by
  dsimp only [hostOps1_4, hostOps1_3, hostOps1_2, hostOps1_1, hostOps1]
  after_results_simp <;> rfl
theorem keep_v30_mid : after hostOps1_4 (after hostOps1_3 (after hostOps1_2 (after hostOps1_1 (after hostOps1 (U))))) (Proc.devRef .tc main_v30) = U (Proc.devRef .tc main_v30) := by
  dsimp only [hostOps1_4, hostOps1_3, hostOps1_2, hostOps1_1, hostOps1]
  after_results_simp <;> rfl
theorem keep_arg5_mid : after hostOps1_4 (after hostOps1_3 (after hostOps1_2 (after hostOps1_1 (after hostOps1 (U))))) (Proc.devRef .tc main_arg5) = U (Proc.devRef .tc main_arg5) := by
  dsimp only [hostOps1_4, hostOps1_3, hostOps1_2, hostOps1_1, hostOps1]
  after_results_simp <;> rfl

/-! ## The three segments -/

/-- The buffers' contents after the five stretches before the first region, from contents `U`. -/
abbrev pre : Valuation τ sig (Elt Ideal) :=
  after hostOps0_4 (after hostOps0_3 (after hostOps0_2 (after hostOps0_1 (after hostOps0 U))))
/-- After the five stretches between the regions. -/
abbrev mid : Valuation τ sig (Elt Ideal) :=
  after hostOps1_4 (after hostOps1_3 (after hostOps1_2 (after hostOps1_1 (after hostOps1 U))))
/-- After the two last stretches. -/
abbrev post : Valuation τ sig (Elt Ideal) := after hostOps2_1 (after hostOps2 U)

theorem pre_src : pre U (Proc.devRef .tc main_v5) = Spec.src (U (Proc.devRef .tc main_arg1)) := by
  show after hostOps0_4 (after hostOps0_3 (after hostOps0_2 (after hostOps0_1 (after hostOps0 U)))) (Proc.devRef .tc main_v5) = _
  rw [keep_src_pre, k0_src]
theorem pre_dst : pre U (Proc.devRef .tc main_v6) = Spec.dst (U (Proc.devRef .tc main_arg1)) := by
  show after hostOps0_4 (after hostOps0_3 (after hostOps0_2 (after hostOps0_1 (after hostOps0 U)))) (Proc.devRef .tc main_v6) = _
  rw [keep_dst_pre, k0_dst]
/-- The weights, as a column, of the sources and targets read off the edge list. -/
theorem pre_norm : pre U (Proc.devRef .tc main_v30)
    = Spec.col (Spec.normFlat (Spec.src (U (Proc.devRef .tc main_arg1))) (Spec.dst (U (Proc.devRef .tc main_arg1))) (Spec.dinv (Spec.dst (U (Proc.devRef .tc main_arg1))))) := by
  show after hostOps0_4 (after hostOps0_3 (after hostOps0_2 (after hostOps0_1 (after hostOps0 U)))) (Proc.devRef .tc main_v30) = _
  rw [keep_norm_pre, k02_norm, keep_src_0_1, keep_dst_0_1, k01_dinv, k0_src, k0_dst, k0_pos, k0_rsq, k0_zero]
  rfl
/-- The first product's left operand: the features with 352 rows of zeros appended, converted. -/
theorem pre_lhs : pre U (Proc.devRef .tc main_v32)
    = (truncf .bf16 (pad S100352x256 ![0, 0] ![352, 0] ![0, 0] (U (Proc.devRef .tc main_arg0)) (sitofp (F := Ideal) .f32 (constantI S_ 32 0#32)) pads_S100000x256_S100352x256_03520_000 h_S_) bitsLt_bf16_f32 : FVec Ideal S100352x256 .bf16) := by
  show after hostOps0_4 (after hostOps0_3 (after hostOps0_2 (after hostOps0_1 (after hostOps0 U)))) (Proc.devRef .tc main_v32) = _
  rw [k04_lhs, k03_pad, keep_arg0_pre, k02_c6]
/-- The first product's right operand: the first weights, converted. -/
theorem pre_rhs : pre U (Proc.devRef .tc main_v33)
    = (truncf .bf16 ((U (Proc.devRef .tc main_arg2)) : FVec Ideal S256x64 .f32) bitsLt_bf16_f32 : FVec Ideal S256x64 .bf16) := by
  show after hostOps0_4 (after hostOps0_3 (after hostOps0_2 (after hostOps0_1 (after hostOps0 U)))) (Proc.devRef .tc main_v33) = _
  rw [k04_rhs, keep_arg2_pre]
theorem pre_arg3 : pre U (Proc.devRef .tc main_arg3) = U (Proc.devRef .tc main_arg3) := keep_arg3_pre U
theorem pre_arg4 : pre U (Proc.devRef .tc main_arg4) = U (Proc.devRef .tc main_arg4) := keep_arg4_pre U
theorem pre_arg5 : pre U (Proc.devRef .tc main_arg5) = U (Proc.devRef .tc main_arg5) := keep_arg5_pre U

/-- The second product's left operand: the first layer of the rows kept of the first region's output, with 352 rows
    of zeros appended, converted. -/
theorem mid_lhs : mid U (Proc.devRef .tc main_v53)
    = (truncf .bf16 (pad S100352x64 ![0, 0] ![352, 0] ![0, 0] (Spec.layer1 (extractStridedSlice S100000x64 ![0, 0] (U (Proc.devRef .tc main_v34)) slices_S100352x64_S100000x64_0_0) (U (Proc.devRef .tc main_v5)) (U (Proc.devRef .tc main_v6)) (U (Proc.devRef .tc main_v30)) (U (Proc.devRef .tc main_arg3))) (sitofp (F := Ideal) .f32 (constantI S_ 32 0#32)) pads_S100000x64_S100352x64_03520_000 h_S_) bitsLt_bf16_f32 : FVec Ideal S100352x64 .bf16) := by
  show after hostOps1_4 (after hostOps1_3 (after hostOps1_2 (after hostOps1_1 (after hostOps1 U)))) (Proc.devRef .tc main_v53) = _
  rw [k14_lhs, k13_pad, keep_relu_1_2, k11_relu, k1_agg, k12_c10]
  rfl
/-- The second product's right operand: the second weights, converted. -/
theorem mid_rhs : mid U (Proc.devRef .tc main_v54)
    = (truncf .bf16 ((U (Proc.devRef .tc main_arg4)) : FVec Ideal S64x16 .f32) bitsLt_bf16_f32 : FVec Ideal S64x16 .bf16) := by
  show after hostOps1_4 (after hostOps1_3 (after hostOps1_2 (after hostOps1_1 (after hostOps1 U)))) (Proc.devRef .tc main_v54) = _
  rw [k14_rhs, keep_arg4_mid]
theorem mid_src : mid U (Proc.devRef .tc main_v5) = U (Proc.devRef .tc main_v5) := keep_v5_mid U
theorem mid_dst : mid U (Proc.devRef .tc main_v6) = U (Proc.devRef .tc main_v6) := keep_v6_mid U
theorem mid_norm : mid U (Proc.devRef .tc main_v30) = U (Proc.devRef .tc main_v30) := keep_v30_mid U
theorem mid_arg5 : mid U (Proc.devRef .tc main_arg5) = U (Proc.devRef .tc main_arg5) := keep_arg5_mid U

/-- The result: the log-softmax of the logits of the rows kept of the second region's output. -/
theorem post_result : post U (Proc.devRef .tc main_v72)
    = Spec.logSoftmax (Spec.logits (extractStridedSlice S100000x16 ![0, 0] (U (Proc.devRef .tc main_v55)) slices_S100352x16_S100000x16_0_0) (U (Proc.devRef .tc main_v5)) (U (Proc.devRef .tc main_v6)) (U (Proc.devRef .tc main_v30)) (U (Proc.devRef .tc main_arg5))) := by
  show after hostOps2_1 (after hostOps2 U) (Proc.devRef .tc main_v72) = _
  rw [k21_out, k2_logits]

end Cert.KernelIdeal.Stretches

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.Product0.lean ====
/-
  The first dense product's region, read as one array.

  The region multiplies a [100352, 256] array (the padded, converted left operand) by a [256, 64] array, 2048 rows at a
  time: grid point t loads rows 2048·t … 2048·t + 2047 of the left array and the whole right array, and stores their
  product into the same rows of the [100352, 64] output.  At the ideal instance entry (p, c) of a block's product is
  the sum over k of left (p, k) · right (k, c), so every block is the restriction of ONE function of the two arrays,
  `prod`; the 49 blocks tile the output, hence after the last write-back the output array is `prod` of the two
  arrays as the region found them.
-/
import proofs.«126925_j8761733284301_2_alg».proof.Proof.Gen.KernelIdeal.Frame
import proofs.«126925_j8761733284301_2_alg».proof.Proof.LibMatRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

/-- Entry (p, c) of the product of a [100352, 256] array by a [256, 64] array. -/
def prod (A : S100352x256.Idx → EReal) (B : S256x64.Idx → EReal) : S100352x64.Idx → EReal :=
  fun i => ∑ k : Fin 256, A (ix2 (i 0 : Fin 100352) k) * B (ix2 k (i 1 : Fin 64))

theorem prod_apply (A : S100352x256.Idx → EReal) (B : S256x64.Idx → EReal) (P : Fin 100352) (Q : Fin 64) :
    prod A B (ix2 P Q) = ∑ k : Fin 256, A (ix2 P k) * B (ix2 k Q) := rfl

/-- The printed contraction record is the plain [M, K] × [K, N] one. -/
theorem dims_eq : dot_S2048x256_S256x64_S2048x64_1_0_0_1_n_n = DotDims.plain 2048 256 64 := rfl

/-- The body's stored value at entry (p, q): the sum over k of the loaded left block at (p, k) times the loaded right
    array at (k, q) (the two shape casts are to the operands' own shapes, the accumulator is the zero array). -/
theorem pay_apply (x0 : FVec Ideal S2048x256 .bf16) (x1 : FVec Ideal S256x64 .bf16) (p : Fin 2048) (q : Fin 64) :
    k0_pay1 (F := Ideal) x0 x1 (ix2 p q) = ∑ k : Fin 256, x0 (ix2 p k) * x1 (ix2 k q) := by
  unfold k0_pay1
  rw [shapeCast_self, shapeCast_self, dims_eq]
  exact MatRows.matmul_plain_apply none x0 x1 p q

/-- A block of the product: if the loaded left block is rows r·2048 … of `A` and the loaded right array is `B`, the
    body's value at a block entry is `prod A B` at the array entry r·2048 rows further down. -/
theorem block_eq (A : S100352x256.Idx → EReal) (B : S256x64.Idx → EReal)
    (x0 : FVec Ideal S2048x256 .bf16) (x1 : FVec Ideal S256x64 .bf16) (r : Nat)
    (h0 : ∀ (p : Fin 2048) (k : Fin 256) (P : Fin 100352), P.val = r * 2048 + p.val → x0 (ix2 p k) = A (ix2 P k))
    (h1 : ∀ (k : Fin 256) (q : Fin 64), x1 (ix2 k q) = B (ix2 k q))
    (J : S2048x64.Idx) (i : S100352x64.Idx)
    (hi0 : (i 0).val = r * 2048 + (J 0).val) (hi1 : (i 1).val = (J 1).val) :
    k0_pay1 (F := Ideal) x0 x1 J = prod A B i := by
  obtain ⟨p, q, rfl⟩ : ∃ (p : Fin 2048) (q : Fin 64), J = ix2 p q := ⟨J 0, J 1, eq_ix2 J⟩
  obtain ⟨P, Q, rfl⟩ : ∃ (P : Fin 100352) (Q : Fin 64), i = ix2 P Q := ⟨i 0, i 1, eq_ix2 i⟩
  have hP : P.val = r * 2048 + p.val := hi0
  have hQ : Q = q := Fin.ext hi1
  subst hQ
  rw [pay_apply, prod_apply]
  exact Finset.sum_congr rfl fun k _ => by rw [h0 p k P hP, h1 k Q]

/-! ## The region's arrays at entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 49 grid points: the left and the output windows sit at block row t, column
    block 0; the right window never moves. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 48
    ∧ win0_2.index t (1 : Fin 2) = 0 :=
  (by decide +kernel : ∀ t : Fin grid0.N, _)

/-- Every block row of the output is some grid point's. -/
theorem idx_onto : ∀ q0 : Fin 49, ∃ t : Fin cfg0.N, win0_2.index t = ![q0.val, 0] :=
  (by decide +kernel : ∀ q0 : Fin 49, ∃ t : Fin grid0.N, win0_2.index t = ![q0.val, 0])

/-- What grid point t writes back is block t of `prod` of the two input arrays as the region finds them. -/
theorem flushed_eq (c : Dev nD) (t : Fin cfg0.N) :
    (dat0 V c).flushed 2 t
      = ((cfg0.win 2).blk t).view.read (Elt Ideal) (prod (V c main_v32 : S100352x256.Idx → EReal) (V c main_v33 : S256x64.Idx → EReal)) := by
  show (cfg0.win 2).cut (grid0.coords t) ((dat0 V c).after 2 t) = _
  rw [after0_2]
  unfold out0_2
  rw [View.canon_unit_zero hz]
  simp only [View.ld_unit_zero (S := S2048x256) hz, View.ld_unit_zero (S := S256x64) hz]
  obtain ⟨e0, e1, e2, e3, e4, e5⟩ := idx_facts t
  funext j
  refine block_eq (V c main_v32 : S100352x256.Idx → EReal) (V c main_v33 : S256x64.Idx → EReal)
    (iblk0 V c 0 t) (iblk0 V c 1 t) (win0_2.index t (0 : Fin 2)) ?_ ?_
    ((cfg0.win 2).xinj (grid0.coords t) j) (((cfg0.win 2).blk t).view.emb j) ?_ ?_
  · intro p k P hP
    show V c main_v32 (((cfg0.win 0).blk t).view.emb (ix2 p k)) = V c main_v32 (ix2 P k)
    refine congrArg _ (funext fun a => Fin.ext ?_)
    match a with
    | ⟨0, _⟩ => show win0_0.index t (0 : Fin 2) * 2048 + 1 * p.val = P.val; omega
    | ⟨1, _⟩ => show win0_0.index t (1 : Fin 2) * 256 + 1 * k.val = k.val; omega
  · intro k q
    show V c main_v33 (((cfg0.win 1).blk t).view.emb (ix2 k q)) = V c main_v33 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 64 + 1 * q.val = q.val; omega
  · show win0_2.index t (0 : Fin 2) * 2048 + 1 * (j 0).val = win0_2.index t (0 : Fin 2) * 2048 + (j 0).val; omega
  · show win0_2.index t (1 : Fin 2) * 64 + 1 * (j 1).val = (j 1).val; omega

/-- An index of the output array is in point t's block iff each coordinate is in the block's range on its axis. -/
theorem mem_blk (t : Fin cfg0.N) (i : S100352x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v34).slice (win0_2.rect t)).set ↔ _
  rw [View.set_slice_whole, Rect.mem_set_unit]
  exact Iff.rfl

/-- The 49 blocks of 2048 rows tile the 100352 rows: the point that covers row r is r / 2048. -/
theorem cover (i : S100352x64.Idx) :
    ∃ t : Fin cfg0.N, (cfg0.win 2).flush t = true ∧ i ∈ ((cfg0.win 2).blk t).view.set := by
  have hi0 : (i 0).val < 100352 := (i 0).isLt
  have hi1 : (i 1).val < 64 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 64 ≤ (i 1).val ∧ (i 1).val < win0_2.index t (1 : Fin 2) * 64 + 64
    omega

/-- After the last write-back the output array is the product of the two input arrays as the region found them. -/
theorem array_eq (c : Dev nD) :
    (dat0 V c).arrAt 2 cfg0.N
      = prod (V c main_v32 : S100352x256.Idx → EReal) (V c main_v33 : S256x64.Idx → EReal) :=
  (dat0 V c).arrAt_eq_of_cover 2 _ (fun t _ => flushed_eq V c t) (cover)

end Cert.KernelIdeal.Product0

end
-- ==== Proof.Product1.lean ====
/-
  The second dense product's region, read as one array.

  The region multiplies a [100352, 64] array (the padded, converted left operand) by a [64, 16] array, 2048 rows at a
  time: grid point t loads rows 2048·t … 2048·t + 2047 of the left array and the whole right array, and stores their
  product into the same rows of the [100352, 16] output.  At the ideal instance entry (p, c) of a block's product is
  the sum over k of left (p, k) · right (k, c), so every block is the restriction of ONE function of the two arrays,
  `prod`; the 49 blocks tile the output, hence after the last write-back the output array is `prod` of the two
  arrays as the region found them.
-/
import proofs.«126925_j8761733284301_2_alg».proof.Proof.Gen.KernelIdeal.Frame
import proofs.«126925_j8761733284301_2_alg».proof.Proof.LibMatRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)

/-- Entry (p, c) of the product of a [100352, 64] array by a [64, 16] array. -/
def prod (A : S100352x64.Idx → EReal) (B : S64x16.Idx → EReal) : S100352x16.Idx → EReal :=
  fun i => ∑ k : Fin 64, A (ix2 (i 0 : Fin 100352) k) * B (ix2 k (i 1 : Fin 16))

theorem prod_apply (A : S100352x64.Idx → EReal) (B : S64x16.Idx → EReal) (P : Fin 100352) (Q : Fin 16) :
    prod A B (ix2 P Q) = ∑ k : Fin 64, A (ix2 P k) * B (ix2 k Q) := rfl

/-- The printed contraction record is the plain [M, K] × [K, N] one. -/
theorem dims_eq : dot_S2048x64_S64x16_S2048x16_1_0_0_1_n_n = DotDims.plain 2048 64 16 := rfl

/-- The body's stored value at entry (p, q): the sum over k of the loaded left block at (p, k) times the loaded right
    array at (k, q) (the two shape casts are to the operands' own shapes, the accumulator is the zero array). -/
theorem pay_apply (x0 : FVec Ideal S2048x64 .bf16) (x1 : FVec Ideal S64x16 .bf16) (p : Fin 2048) (q : Fin 16) :
    k1_pay1 (F := Ideal) x0 x1 (ix2 p q) = ∑ k : Fin 64, x0 (ix2 p k) * x1 (ix2 k q) := by
  unfold k1_pay1
  rw [shapeCast_self, shapeCast_self, dims_eq]
  exact MatRows.matmul_plain_apply none x0 x1 p q

/-- A block of the product: if the loaded left block is rows r·2048 … of `A` and the loaded right array is `B`, the
    body's value at a block entry is `prod A B` at the array entry r·2048 rows further down. -/
theorem block_eq (A : S100352x64.Idx → EReal) (B : S64x16.Idx → EReal)
    (x0 : FVec Ideal S2048x64 .bf16) (x1 : FVec Ideal S64x16 .bf16) (r : Nat)
    (h0 : ∀ (p : Fin 2048) (k : Fin 64) (P : Fin 100352), P.val = r * 2048 + p.val → x0 (ix2 p k) = A (ix2 P k))
    (h1 : ∀ (k : Fin 64) (q : Fin 16), x1 (ix2 k q) = B (ix2 k q))
    (J : S2048x16.Idx) (i : S100352x16.Idx)
    (hi0 : (i 0).val = r * 2048 + (J 0).val) (hi1 : (i 1).val = (J 1).val) :
    k1_pay1 (F := Ideal) x0 x1 J = prod A B i := by
  obtain ⟨p, q, rfl⟩ : ∃ (p : Fin 2048) (q : Fin 16), J = ix2 p q := ⟨J 0, J 1, eq_ix2 J⟩
  obtain ⟨P, Q, rfl⟩ : ∃ (P : Fin 100352) (Q : Fin 16), i = ix2 P Q := ⟨i 0, i 1, eq_ix2 i⟩
  have hP : P.val = r * 2048 + p.val := hi0
  have hQ : Q = q := Fin.ext hi1
  subst hQ
  rw [pay_apply, prod_apply]
  exact Finset.sum_congr rfl fun k _ => by rw [h0 p k P hP, h1 k Q]

/-! ## The region's arrays at entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 49 grid points: the left and the output windows sit at block row t, column
    block 0; the right window never moves. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 48
    ∧ win1_2.index t (1 : Fin 2) = 0 :=
  (by decide +kernel : ∀ t : Fin grid1.N, _)

/-- Every block row of the output is some grid point's. -/
theorem idx_onto : ∀ q0 : Fin 49, ∃ t : Fin cfg1.N, win1_2.index t = ![q0.val, 0] :=
  (by decide +kernel : ∀ q0 : Fin 49, ∃ t : Fin grid1.N, win1_2.index t = ![q0.val, 0])

/-- What grid point t writes back is block t of `prod` of the two input arrays as the region finds them. -/
theorem flushed_eq (c : Dev nD) (t : Fin cfg1.N) :
    (dat1 V c).flushed 2 t
      = ((cfg1.win 2).blk t).view.read (Elt Ideal) (prod (V c main_v53 : S100352x64.Idx → EReal) (V c main_v54 : S64x16.Idx → EReal)) := by
  show (cfg1.win 2).cut (grid1.coords t) ((dat1 V c).after 2 t) = _
  rw [after1_2]
  unfold out1_2
  rw [View.canon_unit_zero hz]
  simp only [View.ld_unit_zero (S := S2048x64) hz, View.ld_unit_zero (S := S64x16) hz]
  obtain ⟨e0, e1, e2, e3, e4, e5⟩ := idx_facts t
  funext j
  refine block_eq (V c main_v53 : S100352x64.Idx → EReal) (V c main_v54 : S64x16.Idx → EReal)
    (iblk1 V c 0 t) (iblk1 V c 1 t) (win1_2.index t (0 : Fin 2)) ?_ ?_
    ((cfg1.win 2).xinj (grid1.coords t) j) (((cfg1.win 2).blk t).view.emb j) ?_ ?_
  · intro p k P hP
    show V c main_v53 (((cfg1.win 0).blk t).view.emb (ix2 p k)) = V c main_v53 (ix2 P k)
    refine congrArg _ (funext fun a => Fin.ext ?_)
    match a with
    | ⟨0, _⟩ => show win1_0.index t (0 : Fin 2) * 2048 + 1 * p.val = P.val; omega
    | ⟨1, _⟩ => show win1_0.index t (1 : Fin 2) * 64 + 1 * k.val = k.val; omega
  · intro k q
    show V c main_v54 (((cfg1.win 1).blk t).view.emb (ix2 k q)) = V c main_v54 (ix2 k q)
    refine congrArg _ (funext fun a => Fin.ext ?_)
    match a with
    | ⟨0, _⟩ => show win1_1.index t (0 : Fin 2) * 64 + 1 * k.val = k.val; omega
    | ⟨1, _⟩ => show win1_1.index t (1 : Fin 2) * 16 + 1 * q.val = q.val; omega
  · show win1_2.index t (0 : Fin 2) * 2048 + 1 * (j 0).val = win1_2.index t (0 : Fin 2) * 2048 + (j 0).val; omega
  · show win1_2.index t (1 : Fin 2) * 16 + 1 * (j 1).val = (j 1).val; omega

/-- An index of the output array is in point t's block iff each coordinate is in the block's range on its axis. -/
theorem mem_blk (t : Fin cfg1.N) (i : S100352x16.Idx) :
    i ∈ ((cfg1.win 2).blk t).view.set ↔ ∀ a : Fin 2, win1_2.index t a * S2048x16.size a ≤ (i a).val
      ∧ (i a).val < win1_2.index t a * S2048x16.size a + S2048x16.size a := by
  show i ∈ ((View.whole main_v55).slice (win1_2.rect t)).set ↔ _
  rw [View.set_slice_whole, Rect.mem_set_unit]
  exact Iff.rfl

/-- The 49 blocks of 2048 rows tile the 100352 rows: the point that covers row r is r / 2048. -/
theorem cover (i : S100352x16.Idx) :
    ∃ t : Fin cfg1.N, (cfg1.win 2).flush t = true ∧ i ∈ ((cfg1.win 2).blk t).view.set := by
  have hi0 : (i 0).val < 100352 := (i 0).isLt
  have hi1 : (i 1).val < 16 := (i 1).isLt
  obtain ⟨t, ht⟩ := idx_onto ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 2048 ≤ (i 0).val ∧ (i 0).val < win1_2.index t (0 : Fin 2) * 2048 + 2048
    omega
  | ⟨1, _⟩ =>
    show win1_2.index t (1 : Fin 2) * 16 ≤ (i 1).val ∧ (i 1).val < win1_2.index t (1 : Fin 2) * 16 + 16
    omega

/-- After the last write-back the output array is the product of the two input arrays as the region found them. -/
theorem array_eq (c : Dev nD) :
    (dat1 V c).arrAt 2 cfg1.N
      = prod (V c main_v53 : S100352x64.Idx → EReal) (V c main_v54 : S64x16.Idx → EReal) :=
  (dat1 V c).arrAt_eq_of_cover 2 _ (fun t _ => flushed_eq V c t) (cover)

end Cert.KernelIdeal.Product1

end
-- ==== Proof.LibPaddedRows.lean ====
/-
  A product computed on a padded left operand and cut back.

  Let x be an [M, K] array and w a [K, N] array.  Pad x with Mp − M further rows of any one value, convert both
  operands to a narrower float format, take entry (P, c) ↦ Σₖ left (P, k) · right (k, c) over the padded rows, and keep
  rows 0 … M − 1 of the result.  At the ideal instance a change of float format is the identity and a row below M of the
  padded array is the row of x, so what is kept is the plain host product of x and w: the added rows never reach a
  kept entry, whatever they hold.  Everything is generic in the extents M, Mp, K, N.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import proofs.«126925_j8761733284301_2_alg».proof.Proof.LibMatRows

noncomputable section

open scoped BigOperators

namespace Idealize.ShloMosaic.PaddedRows

open Idealize.ShloMosaic Idealize.ShloMosaic.ValueIdx

variable {M Mp K N : Nat}

/-- A row below M of an array padded at the high end of its row axis only is that row of the array. -/
theorem pad_rows_apply {α : Type} (x : (⟨2, ![M, K]⟩ : Shape).Idx → α) {u : Shape} (v : u.Idx → α) (hi : Fin 2 → Nat)
    (h : (⟨2, ![M, K]⟩ : Shape).Pads ![0, 0] hi ![0, 0] ⟨2, ![Mp, K]⟩) (hu : 0 < u.numel)
    (p : Fin M) (P : Fin Mp) (hP : P.val = p.val) (k : Fin K) :
    pad ⟨2, ![Mp, K]⟩ ![0, 0] hi ![0, 0] x v h hu (ix2 P k) = x (ix2 p k) :=
  pad_apply_of_inside ![0, 0] hi ![0, 0] x v h hu (ix2 P k) (ix2 p k) fun a => by
    match a with
    | ⟨0, _⟩ => show P.val = 0 + p.val * (0 + 1); omega
    | ⟨1, _⟩ => show k.val = 0 + k.val * (0 + 1); omega

/-- Rows 0 … M − 1 of the product of the padded, converted left operand by the converted right operand are the host
    product of the operands themselves. -/
theorem slice_padded_product (hM : M ≤ Mp) (x : FVec Ideal ⟨2, ![M, K]⟩ .f32) (w : FVec Ideal ⟨2, ![K, N]⟩ .f32)
    {u : Shape} (v : u.Idx → EReal) (hi : Fin 2 → Nat)
    (hp : (⟨2, ![M, K]⟩ : Shape).Pads ![0, 0] hi ![0, 0] ⟨2, ![Mp, K]⟩) (hu : 0 < u.numel)
    (hb : FTy.bits .bf16 < FTy.bits .f32)
    (hs : (⟨2, ![Mp, N]⟩ : Shape).Slices ![0, 0] ⟨2, ![M, N]⟩) :
    extractStridedSlice ⟨2, ![M, N]⟩ ![0, 0]
      (fun i : (⟨2, ![Mp, N]⟩ : Shape).Idx => ∑ k : Fin K,
        (truncf .bf16 (pad ⟨2, ![Mp, K]⟩ ![0, 0] hi ![0, 0] x v hp hu) hb : FVec Ideal ⟨2, ![Mp, K]⟩ .bf16)
            (ix2 (i 0 : Fin Mp) k)
          * (truncf .bf16 w hb : FVec Ideal ⟨2, ![K, N]⟩ .bf16) (ix2 k (i 1 : Fin N))) hs
      = (Host.dotGeneral (F := Ideal) (DotDims.plain M K N) none x w : FVec Ideal ⟨2, ![M, N]⟩ .f32) := by
  funext i
  obtain ⟨p, q, rfl⟩ : ∃ (p : Fin M) (q : Fin N), i = ix2 p q := ⟨i 0, i 1, eq_ix2 i⟩
  have hP : p.val < Mp := lt_of_lt_of_le p.isLt hM
  rw [extractStridedSlice_apply ![0, 0] _ hs (ix2 p q) (ix2 (⟨p.val, hP⟩ : Fin Mp) q) (fun a => by
        match a with
        | ⟨0, _⟩ => show p.val = 0 + p.val; omega
        | ⟨1, _⟩ => show q.val = 0 + q.val; omega),
      MatRows.dotGeneral_plain_apply]
  refine Finset.sum_congr rfl fun k _ => ?_
  show pad ⟨2, ![Mp, K]⟩ ![0, 0] hi ![0, 0] x v hp hu (ix2 (⟨p.val, hP⟩ : Fin Mp) k) * w (ix2 k q) = x (ix2 p k) * w (ix2 k q)
  rw [pad_rows_apply x v hi hp hu p ⟨p.val, hP⟩ rfl k]

end Idealize.ShloMosaic.PaddedRows

end
-- ==== Proof.Network.lean ====
/-
  The whole network as one function of the six arguments.

  A two-layer graph convolution: the features times the first weights, aggregated over the edges with their weights,
  plus the first bias, clamped at zero; that times the second weights, aggregated again, plus the second bias; and the
  row-wise log-softmax of the result.  Both products are plain [M, K] × [K, N] contractions.
-/
import proofs.«126925_j8761733284301_2_alg».proof.Proof.Spec

noncomputable section

namespace Cert.KernelIdeal.Spec

open Cert.KernelIdeal Idealize.ShloMosaic

variable {F : FTy → Type} [FloatOps F]

/-- The weights column of the edge list `e`. -/
def weights (e : Arr F S2x1600000 .i32) : Arr F S1700000x1 .f32 :=
  col (normFlat (src e) (dst e) (dinv (dst e)))

/-- The first layer's output. -/
def hidden (x : Arr F S100000x256 .f32) (e : Arr F S2x1600000 .i32) (w1 : Arr F S256x64 .f32) (b1 : Arr F S64 .f32) :
    Arr F S100000x64 .f32 :=
  layer1 (Host.dotGeneral (F := F) (DotDims.plain 100000 256 64) none x w1) (src e) (dst e) (weights e) b1

/-- The network's result. -/
def network (x : Arr F S100000x256 .f32) (e : Arr F S2x1600000 .i32) (w1 : Arr F S256x64 .f32) (b1 : Arr F S64 .f32)
    (w2 : Arr F S64x16 .f32) (b2 : Arr F S16 .f32) : Arr F S100000x16 .f32 :=
  logSoftmax (logits (Host.dotGeneral (F := F) (DotDims.plain 100000 64 16) none (hidden x e w1 b1) w2)
    (src e) (dst e) (weights e) b2)

end Cert.KernelIdeal.Spec

end
-- ==== Proof.KernelValue.lean ====
/-
  The idealized kernel's result, read back through the run.

  The contents of the buffers at the fourteen boundaries of @main are a fold from the launch memory: a stretch of host
  operations applies its operations, a region replaces its output array by what its write-backs leave and keeps every
  other buffer.  Walking the fold: before the first region the host side has made the sources, targets and weights of
  the edge list and the padded, converted operands of the first product; the region leaves their product; the rows
  kept of it are the plain product of the features and the first weights (the 352 appended rows never reach a kept
  row); between the regions the host side makes the first layer of that and pads and converts it; the second region
  leaves the second product, whose kept rows are the plain product of the first layer's output and the second weights;
  the last two stretches aggregate, add the bias and take the log-softmax.  So the result buffer ends at the network's
  function of the six arguments.
-/
import proofs.«126925_j8761733284301_2_alg».proof.Proof.Gen.KernelIdeal.Frame
import proofs.«126925_j8761733284301_2_alg».proof.Proof.HostStretches
import proofs.«126925_j8761733284301_2_alg».proof.Proof.Product0
import proofs.«126925_j8761733284301_2_alg».proof.Proof.Product1
import proofs.«126925_j8761733284301_2_alg».proof.Proof.LibPaddedRows
import proofs.«126925_j8761733284301_2_alg».proof.Proof.Network

set_option maxRecDepth 65536
set_option maxHeartbeats 2000000

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem w5_src : W5 m ρ c (Proc.devRef .tc main_v5) = Spec.src (m ((c.tc : Thread nD τ).loc main_arg1)) := Stretches.pre_src (W0 m ρ c)
theorem w5_dst : W5 m ρ c (Proc.devRef .tc main_v6) = Spec.dst (m ((c.tc : Thread nD τ).loc main_arg1)) := Stretches.pre_dst (W0 m ρ c)
theorem w5_norm : W5 m ρ c (Proc.devRef .tc main_v30) = Spec.weights (m ((c.tc : Thread nD τ).loc main_arg1)) := Stretches.pre_norm (W0 m ρ c)
theorem w5_lhs : W5 m ρ c (Proc.devRef .tc main_v32)
    = (truncf .bf16 (pad S100352x256 ![0, 0] ![352, 0] ![0, 0] (m ((c.tc : Thread nD τ).loc main_arg0)) (sitofp (F := Ideal) .f32 (constantI S_ 32 0#32)) pads_S100000x256_S100352x256_03520_000 h_S_) bitsLt_bf16_f32 : FVec Ideal S100352x256 .bf16) :=
  Stretches.pre_lhs (W0 m ρ c)
theorem w5_rhs : W5 m ρ c (Proc.devRef .tc main_v33)
    = (truncf .bf16 ((m ((c.tc : Thread nD τ).loc main_arg2)) : FVec Ideal S256x64 .f32) bitsLt_bf16_f32 : FVec Ideal S256x64 .bf16) :=
  Stretches.pre_rhs (W0 m ρ c)
theorem w5_arg3 : W5 m ρ c (Proc.devRef .tc main_arg3) = (m ((c.tc : Thread nD τ).loc main_arg3)) := Stretches.pre_arg3 (W0 m ρ c)
theorem w5_arg4 : W5 m ρ c (Proc.devRef .tc main_arg4) = (m ((c.tc : Thread nD τ).loc main_arg4)) := Stretches.pre_arg4 (W0 m ρ c)
theorem w5_arg5 : W5 m ρ c (Proc.devRef .tc main_arg5) = (m ((c.tc : Thread nD τ).loc main_arg5)) := Stretches.pre_arg5 (W0 m ρ c)

/-! ## At the first region's exit -/

/-- The region's output array: the product of its two operand arrays as the region found them. -/
theorem w6_out : W6 m ρ c (Proc.devRef .tc main_v34)
    = Product0.prod (W5 m ρ c (Proc.devRef .tc main_v32) : S100352x256.Idx → EReal) (W5 m ρ c (Proc.devRef .tc main_v33) : S256x64.Idx → EReal) :=
  (W6_arr m ρ c 2).trans (Product0.array_eq (V5 m ρ) c)

/-- The rows kept of it: the plain product of the features and the first weights. -/
theorem kept1 : extractStridedSlice S100000x64 ![0, 0] (W6 m ρ c (Proc.devRef .tc main_v34)) slices_S100352x64_S100000x64_0_0
    = Host.dotGeneral (F := Ideal) (φ₁ := .f32) (φ₂ := .f32) (DotDims.plain 100000 256 64) none (m ((c.tc : Thread nD τ).loc main_arg0)) (m ((c.tc : Thread nD τ).loc main_arg2)) := by
  rw [w6_out, w5_lhs, w5_rhs]
  exact PaddedRows.slice_padded_product (by decide) (m ((c.tc : Thread nD τ).loc main_arg0)) (m ((c.tc : Thread nD τ).loc main_arg2)) (sitofp (F := Ideal) .f32 (constantI S_ 32 0#32)) ![352, 0]
    pads_S100000x256_S100352x256_03520_000 h_S_ bitsLt_bf16_f32 slices_S100352x64_S100000x64_0_0

theorem w6_src : W6 m ρ c (Proc.devRef .tc main_v5) = Spec.src (m ((c.tc : Thread nD τ).loc main_arg1)) := (W6_of_ne m ρ c main_v5 (by decide)).trans (w5_src m ρ c)
theorem w6_dst : W6 m ρ c (Proc.devRef .tc main_v6) = Spec.dst (m ((c.tc : Thread nD τ).loc main_arg1)) := (W6_of_ne m ρ c main_v6 (by decide)).trans (w5_dst m ρ c)
theorem w6_norm : W6 m ρ c (Proc.devRef .tc main_v30) = Spec.weights (m ((c.tc : Thread nD τ).loc main_arg1)) := (W6_of_ne m ρ c main_v30 (by decide)).trans (w5_norm m ρ c)
theorem w6_arg3 : W6 m ρ c (Proc.devRef .tc main_arg3) = (m ((c.tc : Thread nD τ).loc main_arg3)) := (W6_of_ne m ρ c main_arg3 (by decide)).trans (w5_arg3 m ρ c)
theorem w6_arg4 : W6 m ρ c (Proc.devRef .tc main_arg4) = (m ((c.tc : Thread nD τ).loc main_arg4)) := (W6_of_ne m ρ c main_arg4 (by decide)).trans (w5_arg4 m ρ c)
theorem w6_arg5 : W6 m ρ c (Proc.devRef .tc main_arg5) = (m ((c.tc : Thread nD τ).loc main_arg5)) := (W6_of_ne m ρ c main_arg5 (by decide)).trans (w5_arg5 m ρ c)

/-! ## At the second region's entry -/

theorem w11_lhs : W11 m ρ c (Proc.devRef .tc main_v53)
    = (truncf .bf16 (pad S100352x64 ![0, 0] ![352, 0] ![0, 0] (Spec.hidden (m ((c.tc : Thread nD τ).loc main_arg0)) (m ((c.tc : Thread nD τ).loc main_arg1)) (m ((c.tc : Thread nD τ).loc main_arg2)) (m ((c.tc : Thread nD τ).loc main_arg3))) (sitofp (F := Ideal) .f32 (constantI S_ 32 0#32)) pads_S100000x64_S100352x64_03520_000 h_S_) bitsLt_bf16_f32 : FVec Ideal S100352x64 .bf16) := by
  have h := Stretches.mid_lhs (W6 m ρ c)
  rw [kept1, w6_src, w6_dst, w6_norm, w6_arg3] at h
  exact h
theorem w11_rhs : W11 m ρ c (Proc.devRef .tc main_v54)
    = (truncf .bf16 ((m ((c.tc : Thread nD τ).loc main_arg4)) : FVec Ideal S64x16 .f32) bitsLt_bf16_f32 : FVec Ideal S64x16 .bf16) := by
  have h := Stretches.mid_rhs (W6 m ρ c)
  rw [w6_arg4] at h
  exact h
theorem w11_src : W11 m ρ c (Proc.devRef .tc main_v5) = Spec.src (m ((c.tc : Thread nD τ).loc main_arg1)) := (Stretches.mid_src (W6 m ρ c)).trans (w6_src m ρ c)
theorem w11_dst : W11 m ρ c (Proc.devRef .tc main_v6) = Spec.dst (m ((c.tc : Thread nD τ).loc main_arg1)) := (Stretches.mid_dst (W6 m ρ c)).trans (w6_dst m ρ c)
theorem w11_norm : W11 m ρ c (Proc.devRef .tc main_v30) = Spec.weights (m ((c.tc : Thread nD τ).loc main_arg1)) := (Stretches.mid_norm (W6 m ρ c)).trans (w6_norm m ρ c)
theorem w11_arg5 : W11 m ρ c (Proc.devRef .tc main_arg5) = (m ((c.tc : Thread nD τ).loc main_arg5)) := (Stretches.mid_arg5 (W6 m ρ c)).trans (w6_arg5 m ρ c)

/-! ## At the second region's exit -/

theorem w12_out : W12 m ρ c (Proc.devRef .tc main_v55)
    = Product1.prod (W11 m ρ c (Proc.devRef .tc main_v53) : S100352x64.Idx → EReal) (W11 m ρ c (Proc.devRef .tc main_v54) : S64x16.Idx → EReal) :=
  (W12_arr m ρ c 2).trans (Product1.array_eq (V11 m ρ) c)

/-- The rows kept of it: the plain product of the first layer's output and the second weights. -/
theorem kept2 : extractStridedSlice S100000x16 ![0, 0] (W12 m ρ c (Proc.devRef .tc main_v55)) slices_S100352x16_S100000x16_0_0
    = Host.dotGeneral (F := Ideal) (φ₁ := .f32) (φ₂ := .f32) (DotDims.plain 100000 64 16) none (Spec.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  rw [w12_out, w11_lhs, w11_rhs]
  exact PaddedRows.slice_padded_product (by decide) (Spec.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
    (sitofp (F := Ideal) .f32 (constantI S_ 32 0#32)) ![352, 0]
    pads_S100000x64_S100352x64_03520_000 h_S_ bitsLt_bf16_f32 slices_S100352x16_S100000x16_0_0

theorem w12_src : W12 m ρ c (Proc.devRef .tc main_v5) = Spec.src (m ((c.tc : Thread nD τ).loc main_arg1)) := (W12_of_ne m ρ c main_v5 (by decide)).trans (w11_src m ρ c)
theorem w12_dst : W12 m ρ c (Proc.devRef .tc main_v6) = Spec.dst (m ((c.tc : Thread nD τ).loc main_arg1)) := (W12_of_ne m ρ c main_v6 (by decide)).trans (w11_dst m ρ c)
theorem w12_norm : W12 m ρ c (Proc.devRef .tc main_v30) = Spec.weights (m ((c.tc : Thread nD τ).loc main_arg1)) := (W12_of_ne m ρ c main_v30 (by decide)).trans (w11_norm m ρ c)
theorem w12_arg5 : W12 m ρ c (Proc.devRef .tc main_arg5) = (m ((c.tc : Thread nD τ).loc main_arg5)) := (W12_of_ne m ρ c main_arg5 (by decide)).trans (w11_arg5 m ρ c)

/-! ## At the return -/

/-- THE KERNEL'S RESULT: the network's function of the six arguments. -/
theorem result_eq : W14 m ρ c (Proc.devRef .tc main_v72)
    = Spec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h := Stretches.post_result (W12 m ρ c)
  rw [kept2, w12_src, w12_dst, w12_norm, w12_arg5] at h
  exact h

end Cert.KernelIdeal.Walk

end
-- ==== Proof.ReferenceOps.lean ====
/-
  The idealized reference as a list of operations, and its run.

  The reference is 138 host operations and no kernel.  They are listed here in twelve consecutive chunks that follow
  the flow of the data: the first product; the sources, targets, degrees and their inverse square roots; the `where`
  that zeroes the inverse root of a degree that is not positive; the per-edge weights; the first aggregation with its
  bias; the clamp at zero; the second product; then sources, targets, degrees, `where` and weights again (the
  reference computes them afresh for the second layer); the second aggregation with its bias; the row-wise
  log-softmax.  Its run is a fold: every weakly fair execution terminates with each buffer at the operations'
  results folded, chunk after chunk, over the launch contents.
-/
import proofs.«126925_j8761733284301_2_alg».proof.Proof.Gen.ReferenceIdeal
import Idealize.ShloMosaic.Lib.StableHlo.Run
import Idealize.ShloMosaic.PureOps.Ideal

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-! ## The program as a list, in twelve chunks -/

abbrev c0 : List (HloOp τ sig (Elt F)) :=
  [ binary main_arg0 main_arg2 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) ]

abbrev c1 : List (HloOp τ sig (Elt F)) :=
  [ unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_v5 (iotaInDim S100000 32 0),
    binary main_v2 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v4 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

abbrev c1w : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

abbrev c2 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

abbrev c3 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

abbrev c3r : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

abbrev c4 : List (HloOp τ sig (Elt F)) :=
  [ binary main_v47 main_arg4 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

abbrev c5 : List (HloOp τ sig (Elt F)) :=
  [ unary main_arg1 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    unary main_arg1 main_v51 ((extractStridedSlice S1x1600000 ![1, 0] · slices_S2x1600000_S1x1600000_1_0) : (⟨S2x1600000, .i32⟩ : BufTy).Contents (Elt F) → (⟨S1x1600000, .i32⟩ : BufTy).Contents (Elt F)),
    reshape main_v51 main_v52 rfl shapeCasts_S1x1600000_S1600000,
    nullary main_v53 (iotaInDim S100000 32 0),
    binary main_v50 main_v53 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v52 main_v53 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v56 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S1700000x1 ![0] bcast_S1700000_S1700000x1_0 : (⟨S1700000, .i32⟩ : BufTy).Contents (Elt F) → (⟨S1700000x1, .i32⟩ : BufTy).Contents (Elt F)),
    ternary main_v57 main_v58 main_v56 main_v59 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32) ]

abbrev c5w : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

abbrev c6 : List (HloOp τ sig (Elt F)) :=
  [ nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v54 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v54 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v54 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v63 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v71 (broadcastInDim S1700000 ![] bcast_S_S1700000 : (⟨S_, .i32⟩ : BufTy).Contents (Elt F) → (⟨S1700000, .i32⟩ : BufTy).Contents (Elt F)),
    binary main_v55 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v73 (broadcastInDim S1700000 ![] bcast_S_S1700000 : (⟨S_, .i32⟩ : BufTy).Contents (Elt F) → (⟨S1700000, .i32⟩ : BufTy).Contents (Elt F)),
    binary main_v55 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v55 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v63 main_v76 main_v77 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v70 main_v77 main_v78 (mulf : (⟨S1700000, .f32⟩ : BufTy).Contents (Elt F) → (⟨S1700000, .f32⟩ : BufTy).Contents (Elt F) → (⟨S1700000, .f32⟩ : BufTy).Contents (Elt F)) ]

abbrev c7 : List (HloOp τ sig (Elt F)) :=
  [ nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v54 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v54 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v54 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v48 main_v84 main_v85 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v78 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x16 ![0, 1] bcast_S1700000x1_S1700000x16_0_1 : (⟨S1700000x1, .f32⟩ : BufTy).Contents (Elt F) → (⟨S1700000x16, .f32⟩ : BufTy).Contents (Elt F)),
    binary main_v85 main_v87 main_v88 (mulf : (⟨S1700000x16, .f32⟩ : BufTy).Contents (Elt F) → (⟨S1700000x16, .f32⟩ : BufTy).Contents (Elt F) → (⟨S1700000x16, .f32⟩ : BufTy).Contents (Elt F)),
    nullary main_cst_19 (constant S_ .f32 0x00000000#32),
    unary main_cst_19 main_v89 (broadcastInDim S100000x16 ![] bcast_S_S100000x16 : (⟨S_, .f32⟩ : BufTy).Contents (Elt F) → (⟨S100000x16, .f32⟩ : BufTy).Contents (Elt F)),
    unary main_v55 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)) ]

abbrev c8 : List (HloOp τ sig (Elt F)) :=
  [ TRef.nullary (TRef.of (T := ⟨S_, .f32⟩) main_call3_cst) (constant S_ .f32 0xFF800000#32),
    TRef.binary (TRef.of (T := ⟨S100000x16, .f32⟩) main_v94) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v94) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v95) subf ]

/-- @main's 138 operations, in order. -/
abbrev ops : List (HloOp τ sig (Elt F)) := c0 ++ c1 ++ c1w ++ c2 ++ c3 ++ c3r ++ c4 ++ c5 ++ c5w ++ c6 ++ c7 ++ c8

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- A property of every operation of two lists holds of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! Each operation touches TensorCore references only: chunk by chunk, then of the whole list. -/
theorem c0_sub : (c0 : List (HloOp τ sig (Elt F))).Forall fun op => op.bufs ⊆ tcRefs τ sig :=
  binary_bufs_sub ..
theorem c1_sub : (c1 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩
theorem c1w_sub : (c1w : List (HloOp τ sig (Elt F))).Forall fun op => op.bufs ⊆ tcRefs τ sig :=
  ⟨unary_bufs_sub .., unary_bufs_sub .., ternary_bufs_sub ..⟩
theorem c2_sub : (c2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem c3_sub : (c3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem c3r_sub : (c3r : List (HloOp τ sig (Elt F))).Forall fun op => op.bufs ⊆ tcRefs τ sig :=
  ⟨nullary_bufs_sub .., unary_bufs_sub .., binary_bufs_sub ..⟩
theorem c4_sub : (c4 : List (HloOp τ sig (Elt F))).Forall fun op => op.bufs ⊆ tcRefs τ sig :=
  binary_bufs_sub ..
theorem c5_sub : (c5 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩
theorem c5w_sub : (c5w : List (HloOp τ sig (Elt F))).Forall fun op => op.bufs ⊆ tcRefs τ sig :=
  ⟨unary_bufs_sub .., unary_bufs_sub .., ternary_bufs_sub ..⟩
theorem c6_sub : (c6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem c7_sub : (c7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem c8_sub : (c8 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  forall_append (forall_append (forall_append (forall_append (forall_append (forall_append (forall_append (forall_append (forall_append (forall_append (forall_append (c0_sub) c1_sub) c1w_sub) c2_sub) c3_sub) c3r_sub) c4_sub) c5_sub) c5w_sub) c6_sub) c7_sub) c8_sub

/-- Two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The chunks run in order. -/
theorem after_ops (U : Valuation τ sig (Elt F)) :
    after ops U = after c8 (after c7 (after c6 (after c5w (after c5 (after c4 (after c3r (after c3 (after c2 (after c1w (after c1 (after c0 U))))))))))) := by
  unfold ops
  simp only [after_append]

set_option maxRecDepth 8192 in
set_option maxHeartbeats 4000000 in
/-- Every weakly fair execution of @main terminates, nothing faulting, with every buffer at the operations' results
    folded over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ

end Cert.ReferenceIdeal.Ops

end
-- ==== Proof.ReferenceChunks.lean ====
/-
  The idealized reference, chunk by chunk.

  For ANY contents `U` a chunk of the reference's operations starts from, the buffer the chunk is named after ends at
  the matching function of Proof/Spec.lean of the buffers the chunk reads: the chunk's operations, composed, are that
  function's definition (the two programs' dimension records are different constants with equal fields).  The chunks
  that are bodies of outlined functions reach their buffers through typed references, as on the kernel's side.  No
  chunk writes an argument, and a value one chunk computes is not written again by a later one; so, composed, the
  twelve chunks leave in the result buffer the log-softmax of the second layer's logits of the second product of the
  first layer of the first product, each with the sources, targets and weights of the edge list.
-/
import proofs.«126925_j8761733284301_2_alg».proof.Proof.ReferenceOps
import proofs.«126925_j8761733284301_2_alg».proof.Proof.Spec
import proofs.«126925_j8761733284301_2_alg».proof.Proof.LibTypedRef
import Idealize.ShloMosaic.Lib.StableHlo.Run
import Idealize.ShloMosaic.PureOps.Ideal

set_option maxRecDepth 65536
set_option maxHeartbeats 2000000

noncomputable section

namespace Cert.ReferenceIdeal.Chunks

open Cert.ReferenceIdeal Cert.ReferenceIdeal.Gen Cert.ReferenceIdeal.Ops
open Idealize.ShloMosaic Idealize.ShloMosaic.TcCoe Idealize.SL.Sem Idealize.ShloMosaic.StableHlo

/-! ## The transports at the outlined functions' inputs and outputs are the identity -/

theorem ofBuf_main_v13 (z : (Proc.devRef .tc main_v13 : DevRef τ sig).ty.Contents (Elt Ideal)) :
    (TRef.of main_v13 : TRef sig ⟨S100000, .i1⟩).ofBuf z = z := rfl
theorem ofBuf_main_v14 (z : (Proc.devRef .tc main_v14 : DevRef τ sig).ty.Contents (Elt Ideal)) :
    (TRef.of main_v14 : TRef sig ⟨S100000, .f32⟩).ofBuf z = z := rfl
theorem ofBuf_main_cst_2 (z : (Proc.devRef .tc main_cst_2 : DevRef τ sig).ty.Contents (Elt Ideal)) :
    (TRef.of main_cst_2 : TRef sig ⟨S_, .f32⟩).ofBuf z = z := rfl
theorem toBuf_main_v15 (z : (⟨S100000, .f32⟩ : BufTy).Contents (Elt Ideal)) :
    (TRef.of main_v15 : TRef sig ⟨S100000, .f32⟩).toBuf z = z := rfl
theorem ofBuf_main_v46 (z : (Proc.devRef .tc main_v46 : DevRef τ sig).ty.Contents (Elt Ideal)) :
    (TRef.of main_v46 : TRef sig ⟨S100000x64, .f32⟩).ofBuf z = z := rfl
theorem toBuf_main_v47 (z : (⟨S100000x64, .f32⟩ : BufTy).Contents (Elt Ideal)) :
    (TRef.of main_v47 : TRef sig ⟨S100000x64, .f32⟩).toBuf z = z := rfl
theorem ofBuf_main_v61 (z : (Proc.devRef .tc main_v61 : DevRef τ sig).ty.Contents (Elt Ideal)) :
    (TRef.of main_v61 : TRef sig ⟨S100000, .i1⟩).ofBuf z = z := rfl
theorem ofBuf_main_v62 (z : (Proc.devRef .tc main_v62 : DevRef τ sig).ty.Contents (Elt Ideal)) :
    (TRef.of main_v62 : TRef sig ⟨S100000, .f32⟩).ofBuf z = z := rfl
theorem ofBuf_main_cst_12 (z : (Proc.devRef .tc main_cst_12 : DevRef τ sig).ty.Contents (Elt Ideal)) :
    (TRef.of main_cst_12 : TRef sig ⟨S_, .f32⟩).ofBuf z = z := rfl
theorem toBuf_main_v63 (z : (⟨S100000, .f32⟩ : BufTy).Contents (Elt Ideal)) :
    (TRef.of main_v63 : TRef sig ⟨S100000, .f32⟩).toBuf z = z := rfl
theorem ofBuf_main_v94 (z : (Proc.devRef .tc main_v94 : DevRef τ sig).ty.Contents (Elt Ideal)) :
    (TRef.of main_v94 : TRef sig ⟨S100000x16, .f32⟩).ofBuf z = z := rfl
theorem toBuf_main_v95 (z : (⟨S100000x16, .f32⟩ : BufTy).Contents (Elt Ideal)) :
    (TRef.of main_v95 : TRef sig ⟨S100000x16, .f32⟩).toBuf z = z := rfl

variable (U : Valuation τ sig (Elt Ideal))

/-! ## Each chunk, from any contents -/

/-- The first product. -/
theorem r0_prod : after c0 U (Proc.devRef .tc main_v0)
    = Host.dotGeneral (F := Ideal) (φ₁ := .f32) (φ₂ := .f32) dot_S100000x256_S256x64_S100000x64_1_0_0_1_n_n none (U (Proc.devRef .tc main_arg0)) (U (Proc.devRef .tc main_arg2)) := by
  dsimp only [c0]
  after_results_simp <;> rfl

theorem r1_src : after c1 U (Proc.devRef .tc main_v6)
    = Cert.KernelIdeal.Spec.src (U (Proc.devRef .tc main_arg1)) := by
  dsimp only [c1]
  after_results_simp <;> rfl
theorem r1_dst : after c1 U (Proc.devRef .tc main_v7)
    = Cert.KernelIdeal.Spec.dst (U (Proc.devRef .tc main_arg1)) := by
  dsimp only [c1]
  after_results_simp <;> rfl
theorem r1_pos : after c1 U (Proc.devRef .tc main_v13)
    = Cert.KernelIdeal.Spec.degPos (Cert.KernelIdeal.Spec.dst (U (Proc.devRef .tc main_arg1))) := by
  dsimp only [c1]
  after_results_simp <;> rfl
theorem r1_rsq : after c1 U (Proc.devRef .tc main_v14)
    = Host.rsqrt (Cert.KernelIdeal.Spec.deg (Cert.KernelIdeal.Spec.dst (U (Proc.devRef .tc main_arg1)))) := by
  dsimp only [c1]
  after_results_simp <;> rfl
theorem r1_zero : after c1 U (Proc.devRef .tc main_cst_2)
    = (constant (F := Ideal) S_ .f32 0x00000000#32) := by
  dsimp only [c1]
  after_results_simp <;> rfl

/-- The `where`. -/
theorem r1w_dinv : after c1w U (Proc.devRef .tc main_v15)
    = Cert.KernelIdeal.Spec.whereSel (U (Proc.devRef .tc main_v13)) (U (Proc.devRef .tc main_v14)) (U (Proc.devRef .tc main_cst_2)) := by
  have h : after c1w U (Proc.devRef .tc main_v15)
      = (TRef.of main_v15 : TRef sig ⟨S100000, .f32⟩).toBuf (Cert.KernelIdeal.Spec.whereSel ((TRef.of main_v13 : TRef sig ⟨S100000, .i1⟩).ofBuf (U (Proc.devRef .tc main_v13))) ((TRef.of main_v14 : TRef sig ⟨S100000, .f32⟩).ofBuf (U (Proc.devRef .tc main_v14))) ((TRef.of main_cst_2 : TRef sig ⟨S_, .f32⟩).ofBuf (U (Proc.devRef .tc main_cst_2)))) := by
    dsimp only [c1w]
    after_results_simp <;> (try simp only [TRef.ofBuf_toBuf]) <;> rfl
  rw [h, toBuf_main_v15, ofBuf_main_v13, ofBuf_main_v14, ofBuf_main_cst_2]

/-- The weights. -/
theorem r2_norm : after c2 U (Proc.devRef .tc main_v30)
    = Cert.KernelIdeal.Spec.normFlat (U (Proc.devRef .tc main_v6)) (U (Proc.devRef .tc main_v7)) (U (Proc.devRef .tc main_v15)) := by
  dsimp only [c2]
  after_results_simp <;> rfl

/-- The first aggregation and bias. -/
theorem r3_agg : after c3 U (Proc.devRef .tc main_v46)
    = Cert.KernelIdeal.Spec.agg1 (U (Proc.devRef .tc main_v0)) (U (Proc.devRef .tc main_v6)) (U (Proc.devRef .tc main_v7)) (Cert.KernelIdeal.Spec.col (U (Proc.devRef .tc main_v30))) (U (Proc.devRef .tc main_arg3)) := by
  dsimp only [c3]
  after_results_simp <;> rfl

/-- The clamp at zero. -/
theorem r3r_relu : after c3r U (Proc.devRef .tc main_v47)
    = Cert.KernelIdeal.Spec.relu (U (Proc.devRef .tc main_v46)) := by
  have h : after c3r U (Proc.devRef .tc main_v47)
      = (TRef.of main_v47 : TRef sig ⟨S100000x64, .f32⟩).toBuf (Cert.KernelIdeal.Spec.relu ((TRef.of main_v46 : TRef sig ⟨S100000x64, .f32⟩).ofBuf (U (Proc.devRef .tc main_v46)))) := by
    dsimp only [c3r]
    after_results_simp <;> (try simp only [TRef.ofBuf_toBuf]) <;> rfl
  rw [h, toBuf_main_v47, ofBuf_main_v46]

/-- The second product. -/
theorem r4_prod : after c4 U (Proc.devRef .tc main_v48)
    = Host.dotGeneral (F := Ideal) (φ₁ := .f32) (φ₂ := .f32) dot_S100000x64_S64x16_S100000x16_1_0_0_1_n_n none (U (Proc.devRef .tc main_v47)) (U (Proc.devRef .tc main_arg4)) := by
  dsimp only [c4]
  after_results_simp <;> rfl

theorem r5_src : after c5 U (Proc.devRef .tc main_v54)
    = Cert.KernelIdeal.Spec.src (U (Proc.devRef .tc main_arg1)) := by
  dsimp only [c5]
  after_results_simp <;> rfl
theorem r5_dst : after c5 U (Proc.devRef .tc main_v55)
    = Cert.KernelIdeal.Spec.dst (U (Proc.devRef .tc main_arg1)) := by
  dsimp only [c5]
  after_results_simp <;> rfl
theorem r5_pos : after c5 U (Proc.devRef .tc main_v61)
    = Cert.KernelIdeal.Spec.degPos (Cert.KernelIdeal.Spec.dst (U (Proc.devRef .tc main_arg1))) := by
  dsimp only [c5]
  after_results_simp <;> rfl
theorem r5_rsq : after c5 U (Proc.devRef .tc main_v62)
    = Host.rsqrt (Cert.KernelIdeal.Spec.deg (Cert.KernelIdeal.Spec.dst (U (Proc.devRef .tc main_arg1)))) := by
  dsimp only [c5]
  after_results_simp <;> rfl
theorem r5_zero : after c5 U (Proc.devRef .tc main_cst_12)
    = (constant (F := Ideal) S_ .f32 0x00000000#32) := by
  dsimp only [c5]
  after_results_simp <;> rfl

/-- The `where`, again. -/
theorem r5w_dinv : after c5w U (Proc.devRef .tc main_v63)
    = Cert.KernelIdeal.Spec.whereSel (U (Proc.devRef .tc main_v61)) (U (Proc.devRef .tc main_v62)) (U (Proc.devRef .tc main_cst_12)) := by
  have h : after c5w U (Proc.devRef .tc main_v63)
      = (TRef.of main_v63 : TRef sig ⟨S100000, .f32⟩).toBuf (Cert.KernelIdeal.Spec.whereSel ((TRef.of main_v61 : TRef sig ⟨S100000, .i1⟩).ofBuf (U (Proc.devRef .tc main_v61))) ((TRef.of main_v62 : TRef sig ⟨S100000, .f32⟩).ofBuf (U (Proc.devRef .tc main_v62))) ((TRef.of main_cst_12 : TRef sig ⟨S_, .f32⟩).ofBuf (U (Proc.devRef .tc main_cst_12)))) := by
    dsimp only [c5w]
    after_results_simp <;> (try simp only [TRef.ofBuf_toBuf]) <;> rfl
  rw [h, toBuf_main_v63, ofBuf_main_v61, ofBuf_main_v62, ofBuf_main_cst_12]

/-- The weights, again. -/
theorem r6_norm : after c6 U (Proc.devRef .tc main_v78)
    = Cert.KernelIdeal.Spec.normFlat (U (Proc.devRef .tc main_v54)) (U (Proc.devRef .tc main_v55)) (U (Proc.devRef .tc main_v63)) := by
  dsimp only [c6]
  after_results_simp <;> rfl

/-- The second aggregation and bias. -/
theorem r7_logits : after c7 U (Proc.devRef .tc main_v94)
    = Cert.KernelIdeal.Spec.logits (U (Proc.devRef .tc main_v48)) (U (Proc.devRef .tc main_v54)) (U (Proc.devRef .tc main_v55)) (Cert.KernelIdeal.Spec.col (U (Proc.devRef .tc main_v78))) (U (Proc.devRef .tc main_arg5)) := by
  dsimp only [c7]
  after_results_simp <;> rfl

/-- The row-wise log-softmax. -/
theorem r8_out : after c8 U (Proc.devRef .tc main_v95)
    = Cert.KernelIdeal.Spec.logSoftmax (U (Proc.devRef .tc main_v94)) := by
  have h : after c8 U (Proc.devRef .tc main_v95)
      = (TRef.of main_v95 : TRef sig ⟨S100000x16, .f32⟩).toBuf (Cert.KernelIdeal.Spec.logSoftmax ((TRef.of main_v94 : TRef sig ⟨S100000x16, .f32⟩).ofBuf (U (Proc.devRef .tc main_v94)))) := by
    dsimp only [c8]
    after_results_simp <;> (try simp only [TRef.ofBuf_toBuf]) <;> rfl
  rw [h, toBuf_main_v95, ofBuf_main_v94]

/-! ## Buffers a run of chunks does not write -/

theorem keep_arg1_a : after c0 U (Proc.devRef .tc main_arg1) = U (Proc.devRef .tc main_arg1) := by
  dsimp only [c0]
  after_results_simp <;> rfl
theorem keep_arg3 : after c2 (after c1w (after c1 (after c0 U))) (Proc.devRef .tc main_arg3) = U (Proc.devRef .tc main_arg3) := by
  dsimp only [c2, c1w, c1, c0]
  after_results_simp <;> rfl
theorem keep_arg4 : after c3r (after c3 (after c2 (after c1w (after c1 (after c0 U))))) (Proc.devRef .tc main_arg4) = U (Proc.devRef .tc main_arg4) := by
  dsimp only [c3r, c3, c2, c1w, c1, c0]
  after_results_simp <;> rfl
theorem keep_arg1_b : after c4 (after c3r (after c3 (after c2 (after c1w (after c1 (after c0 U)))))) (Proc.devRef .tc main_arg1) = U (Proc.devRef .tc main_arg1) := by
  dsimp only [c4, c3r, c3, c2, c1w, c1, c0]
  after_results_simp <;> rfl
theorem keep_arg5 : after c6 (after c5w (after c5 (after c4 (after c3r (after c3 (after c2 (after c1w (after c1 (after c0 U))))))))) (Proc.devRef .tc main_arg5) = U (Proc.devRef .tc main_arg5) := by
  dsimp only [c6, c5w, c5, c4, c3r, c3, c2, c1w, c1, c0]
  after_results_simp <;> rfl
theorem keep_v0 : after c2 (after c1w (after c1 U)) (Proc.devRef .tc main_v0) = U (Proc.devRef .tc main_v0) := by
  dsimp only [c2, c1w, c1]
  after_results_simp <;> rfl
theorem keep_v6_w : after c1w U (Proc.devRef .tc main_v6) = U (Proc.devRef .tc main_v6) := by
  dsimp only [c1w]
  after_results_simp <;> rfl
theorem keep_v7_w : after c1w U (Proc.devRef .tc main_v7) = U (Proc.devRef .tc main_v7) := by
  dsimp only [c1w]
  after_results_simp <;> rfl
theorem keep_v6_b : after c2 (after c1w U) (Proc.devRef .tc main_v6) = U (Proc.devRef .tc main_v6) := by
  dsimp only [c2, c1w]
  after_results_simp <;> rfl
theorem keep_v7_b : after c2 (after c1w U) (Proc.devRef .tc main_v7) = U (Proc.devRef .tc main_v7) := by
  dsimp only [c2, c1w]
  after_results_simp <;> rfl
theorem keep_v48 : after c6 (after c5w (after c5 U)) (Proc.devRef .tc main_v48) = U (Proc.devRef .tc main_v48) := by
  dsimp only [c6, c5w, c5]
  after_results_simp <;> rfl
theorem keep_v54_w : after c5w U (Proc.devRef .tc main_v54) = U (Proc.devRef .tc main_v54) := by
  dsimp only [c5w]
  after_results_simp <;> rfl
theorem keep_v55_w : after c5w U (Proc.devRef .tc main_v55) = U (Proc.devRef .tc main_v55) := by
  dsimp only [c5w]
  after_results_simp <;> rfl
theorem keep_v54_b : after c6 (after c5w U) (Proc.devRef .tc main_v54) = U (Proc.devRef .tc main_v54) := by
  dsimp only [c6, c5w]
  after_results_simp <;> rfl
theorem keep_v55_b : after c6 (after c5w U) (Proc.devRef .tc main_v55) = U (Proc.devRef .tc main_v55) := by
  dsimp only [c6, c5w]
  after_results_simp <;> rfl

/-! ## Composed -/

/-- The weights of the edge list, after the first four chunks past the product. -/
theorem weights1 : after c2 (after c1w (after c1 U)) (Proc.devRef .tc main_v30) = (Cert.KernelIdeal.Spec.normFlat (Cert.KernelIdeal.Spec.src (U (Proc.devRef .tc main_arg1))) (Cert.KernelIdeal.Spec.dst (U (Proc.devRef .tc main_arg1))) (Cert.KernelIdeal.Spec.dinv (Cert.KernelIdeal.Spec.dst (U (Proc.devRef .tc main_arg1))))) := by
  rw [r2_norm, keep_v6_w, keep_v7_w, r1w_dinv, r1_src, r1_dst, r1_pos, r1_rsq, r1_zero]
  rfl

/-- The first layer: after the first six chunks. -/
theorem layer1_eq : after c3r (after c3 (after c2 (after c1w (after c1 (after c0 U))))) (Proc.devRef .tc main_v47) = (Cert.KernelIdeal.Spec.layer1 (Host.dotGeneral (F := Ideal) (φ₁ := .f32) (φ₂ := .f32) dot_S100000x256_S256x64_S100000x64_1_0_0_1_n_n none (U (Proc.devRef .tc main_arg0)) (U (Proc.devRef .tc main_arg2))) (Cert.KernelIdeal.Spec.src (U (Proc.devRef .tc main_arg1))) (Cert.KernelIdeal.Spec.dst (U (Proc.devRef .tc main_arg1))) (Cert.KernelIdeal.Spec.col (Cert.KernelIdeal.Spec.normFlat (Cert.KernelIdeal.Spec.src (U (Proc.devRef .tc main_arg1))) (Cert.KernelIdeal.Spec.dst (U (Proc.devRef .tc main_arg1))) (Cert.KernelIdeal.Spec.dinv (Cert.KernelIdeal.Spec.dst (U (Proc.devRef .tc main_arg1)))))) (U (Proc.devRef .tc main_arg3))) := by
  rw [r3r_relu, r3_agg, weights1, keep_v0, r0_prod, keep_v6_b, keep_v7_b, r1_src, r1_dst, keep_arg1_a, keep_arg3]
  rfl

/-- The weights again, computed by the chunks of the second layer from the same edge list. -/
theorem weights2 : after c6 (after c5w (after c5 U)) (Proc.devRef .tc main_v78) = (Cert.KernelIdeal.Spec.normFlat (Cert.KernelIdeal.Spec.src (U (Proc.devRef .tc main_arg1))) (Cert.KernelIdeal.Spec.dst (U (Proc.devRef .tc main_arg1))) (Cert.KernelIdeal.Spec.dinv (Cert.KernelIdeal.Spec.dst (U (Proc.devRef .tc main_arg1))))) := by
  rw [r6_norm, keep_v54_w, keep_v55_w, r5w_dinv, r5_src, r5_dst, r5_pos, r5_rsq, r5_zero]
  rfl

/-- THE REFERENCE'S RESULT, from any contents: the log-softmax of the second layer's logits of the second product of
    the first layer of the first product. -/
theorem result_eq : after ops U (Proc.devRef .tc main_v95)
    = Cert.KernelIdeal.Spec.logSoftmax (Cert.KernelIdeal.Spec.logits (Host.dotGeneral (F := Ideal) (φ₁ := .f32) (φ₂ := .f32) dot_S100000x64_S64x16_S100000x16_1_0_0_1_n_n none (Cert.KernelIdeal.Spec.layer1 (Host.dotGeneral (F := Ideal) (φ₁ := .f32) (φ₂ := .f32) dot_S100000x256_S256x64_S100000x64_1_0_0_1_n_n none (U (Proc.devRef .tc main_arg0)) (U (Proc.devRef .tc main_arg2))) (Cert.KernelIdeal.Spec.src (U (Proc.devRef .tc main_arg1))) (Cert.KernelIdeal.Spec.dst (U (Proc.devRef .tc main_arg1))) (Cert.KernelIdeal.Spec.col (Cert.KernelIdeal.Spec.normFlat (Cert.KernelIdeal.Spec.src (U (Proc.devRef .tc main_arg1))) (Cert.KernelIdeal.Spec.dst (U (Proc.devRef .tc main_arg1))) (Cert.KernelIdeal.Spec.dinv (Cert.KernelIdeal.Spec.dst (U (Proc.devRef .tc main_arg1)))))) (U (Proc.devRef .tc main_arg3))) (U (Proc.devRef .tc main_arg4)))
        (Cert.KernelIdeal.Spec.src (U (Proc.devRef .tc main_arg1))) (Cert.KernelIdeal.Spec.dst (U (Proc.devRef .tc main_arg1))) (Cert.KernelIdeal.Spec.col (Cert.KernelIdeal.Spec.normFlat (Cert.KernelIdeal.Spec.src (U (Proc.devRef .tc main_arg1))) (Cert.KernelIdeal.Spec.dst (U (Proc.devRef .tc main_arg1))) (Cert.KernelIdeal.Spec.dinv (Cert.KernelIdeal.Spec.dst (U (Proc.devRef .tc main_arg1)))))) (U (Proc.devRef .tc main_arg5))) := by
  rw [after_ops, r8_out, r7_logits, weights2, keep_v48, r4_prod, layer1_eq, keep_arg4, keep_v54_b, keep_v55_b, r5_src, r5_dst,
    keep_arg1_b, keep_arg5]

/-! ## No chunk writes an argument -/

theorem args_kept0 : after ops U (Proc.devRef .tc main_arg0) = U (Proc.devRef .tc main_arg0) := by
  rw [after_ops]
  dsimp only [c8, c7, c6, c5w, c5, c4, c3r, c3, c2, c1w, c1, c0]
  after_results_simp <;> rfl
theorem args_kept1 : after ops U (Proc.devRef .tc main_arg1) = U (Proc.devRef .tc main_arg1) := by
  rw [after_ops]
  dsimp only [c8, c7, c6, c5w, c5, c4, c3r, c3, c2, c1w, c1, c0]
  after_results_simp <;> rfl
theorem args_kept2 : after ops U (Proc.devRef .tc main_arg2) = U (Proc.devRef .tc main_arg2) := by
  rw [after_ops]
  dsimp only [c8, c7, c6, c5w, c5, c4, c3r, c3, c2, c1w, c1, c0]
  after_results_simp <;> rfl
theorem args_kept3 : after ops U (Proc.devRef .tc main_arg3) = U (Proc.devRef .tc main_arg3) := by
  rw [after_ops]
  dsimp only [c8, c7, c6, c5w, c5, c4, c3r, c3, c2, c1w, c1, c0]
  after_results_simp <;> rfl
theorem args_kept4 : after ops U (Proc.devRef .tc main_arg4) = U (Proc.devRef .tc main_arg4) := by
  rw [after_ops]
  dsimp only [c8, c7, c6, c5w, c5, c4, c3r, c3, c2, c1w, c1, c0]
  after_results_simp <;> rfl
theorem args_kept5 : after ops U (Proc.devRef .tc main_arg5) = U (Proc.devRef .tc main_arg5) := by
  rw [after_ops]
  dsimp only [c8, c7, c6, c5w, c5, c4, c3r, c3, c2, c1w, c1, c0]
  after_results_simp <;> rfl

end Cert.ReferenceIdeal.Chunks

end
-- ==== Proof.lean ====
/-
  A two-layer graph convolution with a row-wise log-softmax, computed two ways.

  The kernel program pads the node axis from 100000 to 100352 rows, converts the operands of each dense product to a
  narrower float format, runs the product 2048 rows at a time in a region of the TensorCore, and cuts the result back
  to 100000 rows; the gathers, the scaling by the edge weights, the scatter-adds, the biases, the clamp and the
  log-softmax are host operations.  The reference runs the same host operations around one host contraction per
  layer, and computes the edge weights once per layer instead of once.  At the ideal instance a change of float format
  is the identity, the appended rows never reach a kept row, and a product into a zero accumulator is the same sum
  over the shared axis as a host contraction, whatever the tiling; so both programs leave in their result buffer the
  same function of the six arguments, `Spec.network`.

  The claim has five parts.  The two frames of the kernel programs are the generated ones.  The reference's frame is
  its run (Proof/ReferenceOps.lean) with the arguments read back: no operation writes one.  The idealization
  rewrote nothing, so that part asks nothing.  The last part puts the two runs side by side: the kernel's
  (Proof/KernelRun.lean) read back through its fourteen segment boundaries (Proof/KernelValue.lean), the reference's
  read back through its twelve chunks (Proof/ReferenceChunks.lean), and the arguments' agreement.
-/
import proofs.«126925_j8761733284301_2_alg».proof.Defs
import proofs.«126925_j8761733284301_2_alg».proof.Proof.Gen.Kernel
import proofs.«126925_j8761733284301_2_alg».proof.Proof.Gen.Kernel.Frame
import proofs.«126925_j8761733284301_2_alg».proof.Proof.Gen.KernelIdeal
import proofs.«126925_j8761733284301_2_alg».proof.Proof.Gen.KernelIdeal.Frame
import proofs.«126925_j8761733284301_2_alg».proof.Proof.Gen.ReferenceIdeal
import proofs.«126925_j8761733284301_2_alg».proof.Proof.Gen.Pre_finite_inputs
import proofs.«126925_j8761733284301_2_alg».proof.Proof.KernelRun
import proofs.«126925_j8761733284301_2_alg».proof.Proof.KernelValue
import proofs.«126925_j8761733284301_2_alg».proof.Proof.ReferenceOps
import proofs.«126925_j8761733284301_2_alg».proof.Proof.ReferenceChunks
import proofs.«126925_j8761733284301_2_alg».proof.Proof.Network
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.StableHlo

/-- The reference's two contraction records are the plain ones. -/
theorem ref_dims1 : Cert.ReferenceIdeal.dot_S100000x256_S256x64_S100000x64_1_0_0_1_n_n = DotDims.plain 100000 256 64 := rfl
theorem ref_dims2 : Cert.ReferenceIdeal.dot_S100000x64_S64x16_S100000x16_1_0_0_1_n_n = DotDims.plain 100000 64 16 := rfl

/-- The reference's result buffer, from launch contents `m'`, ends at the network's function of the arguments. -/
theorem reference_value (m' : (ℓ : Loc Cert.ReferenceIdeal.nD Cert.ReferenceIdeal.τ Cert.ReferenceIdeal.sig) → Buf (Elt Ideal) ℓ)
    (c : Dev Cert.ReferenceIdeal.nD) :
    after Cert.ReferenceIdeal.Ops.ops (launchContents m' c) (Proc.devRef .tc Cert.ReferenceIdeal.main_v95)
      = Cert.KernelIdeal.Spec.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  rw [Cert.ReferenceIdeal.Chunks.result_eq, ref_dims1, ref_dims2]
  rfl

/-- No operation of the reference writes an argument. -/
theorem reference_args (m' : (ℓ : Loc Cert.ReferenceIdeal.nD Cert.ReferenceIdeal.τ Cert.ReferenceIdeal.sig) → Buf (Elt Ideal) ℓ)
    (c : Dev Cert.ReferenceIdeal.nD) :
    after Cert.ReferenceIdeal.Ops.ops (launchContents m' c) (Proc.devRef .tc Cert.ReferenceIdeal.main_arg0) = (m' ((c.tc : Thread Cert.ReferenceIdeal.nD Cert.ReferenceIdeal.τ).loc Cert.ReferenceIdeal.main_arg0))
    ∧ after Cert.ReferenceIdeal.Ops.ops (launchContents m' c) (Proc.devRef .tc Cert.ReferenceIdeal.main_arg1) = (m' ((c.tc : Thread Cert.ReferenceIdeal.nD Cert.ReferenceIdeal.τ).loc Cert.ReferenceIdeal.main_arg1))
    ∧ after Cert.ReferenceIdeal.Ops.ops (launchContents m' c) (Proc.devRef .tc Cert.ReferenceIdeal.main_arg2) = (m' ((c.tc : Thread Cert.ReferenceIdeal.nD Cert.ReferenceIdeal.τ).loc Cert.ReferenceIdeal.main_arg2))
    ∧ after Cert.ReferenceIdeal.Ops.ops (launchContents m' c) (Proc.devRef .tc Cert.ReferenceIdeal.main_arg3) = (m' ((c.tc : Thread Cert.ReferenceIdeal.nD Cert.ReferenceIdeal.τ).loc Cert.ReferenceIdeal.main_arg3))
    ∧ after Cert.ReferenceIdeal.Ops.ops (launchContents m' c) (Proc.devRef .tc Cert.ReferenceIdeal.main_arg4) = (m' ((c.tc : Thread Cert.ReferenceIdeal.nD Cert.ReferenceIdeal.τ).loc Cert.ReferenceIdeal.main_arg4))
    ∧ after Cert.ReferenceIdeal.Ops.ops (launchContents m' c) (Proc.devRef .tc Cert.ReferenceIdeal.main_arg5) = (m' ((c.tc : Thread Cert.ReferenceIdeal.nD Cert.ReferenceIdeal.τ).loc Cert.ReferenceIdeal.main_arg5)) :=
  ⟨Cert.ReferenceIdeal.Chunks.args_kept0 _, Cert.ReferenceIdeal.Chunks.args_kept1 _, Cert.ReferenceIdeal.Chunks.args_kept2 _,
   Cert.ReferenceIdeal.Chunks.args_kept3 _, Cert.ReferenceIdeal.Chunks.args_kept4 _, Cert.ReferenceIdeal.Chunks.args_kept5 _⟩

/-- The reference's run with its result and arguments named. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v95)
            = Cert.KernelIdeal.Spec.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg1) = (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg2) = (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg3) = (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg4) = (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg5) = (m' ((c.tc : Thread Cert.ReferenceIdeal.nD Cert.ReferenceIdeal.τ).loc Cert.ReferenceIdeal.main_arg5))) :=
  (θ_run (Cert.ReferenceIdeal.defs (F := Ideal)) _ _).mono (fun r h c =>
    ⟨(h c _).trans (reference_value m' c), (h c _).trans (reference_args m' c).1, (h c _).trans (reference_args m' c).2.1,
     (h c _).trans (reference_args m' c).2.2.1, (h c _).trans (reference_args m' c).2.2.2.1,
     (h c _).trans (reference_args m' c).2.2.2.2.1, (h c _).trans (reference_args m' c).2.2.2.2.2⟩)
    (Cert.ReferenceIdeal.Ops.run_fold (F := Ideal) m' ρ')

theorem claim : Cert.Claim := ⟨Cert.Kernel.Gen.facts, Cert.KernelIdeal.Gen.facts, Cert.ReferenceIdeal.Gen.facts, Cert.Pre_finite_inputs.Gen.facts,
  -- the word-level kernel's frame and the idealized kernel's: generated
  fun m ρ _ => Cert.Kernel.Gen.frame m ρ,
  fun m ρ _ => Cert.KernelIdeal.Gen.frame m ρ,
  -- the reference's frame: its run, the result dropped
  fun m ρ _ => (θ_run (Cert.ReferenceIdeal.defs (F := Ideal)) _ _).mono (fun _ h c => (h c).2) (reference_run m ρ),
  -- the idealization rewrote nothing
  trivial,
  -- both runs end at the network's function of arguments that agree
  fun m ρ m' ρ' _ hagree =>
    ⟨fun c => Cert.KernelIdeal.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
     (θ_run (Cert.KernelIdeal.defs (F := Ideal)) _ _).mono (fun r h c =>
        ⟨(h c).1.trans (Cert.KernelIdeal.Walk.result_eq m ρ c), (h c).2⟩) (Cert.KernelIdeal.Run.run_result (F := Ideal) m ρ),
     (θ_run (Cert.ReferenceIdeal.defs (F := Ideal)) _ _).mono (fun r h c =>
        ⟨by rw [(h c).1, (hagree c).1, (hagree c).2.1, (hagree c).2.2.1, (hagree c).2.2.2.1, (hagree c).2.2.2.2.1, (hagree c).2.2.2.2.2],
         (h c).2⟩) (reference_run m' ρ')⟩⟩

end Cert.Proof

end
